-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  reduces_S1024x1_S1 : S1024x1.Reduces [0] S1
  shapeCasts_S1_S1x1 : S1.ShapeCasts S1x1
  natLt_1_32 : 1 < 32
  shapeCasts_S1x1_S_ : S1x1.ShapeCasts S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i1⟩
  | .hbm, ⟨21, _⟩ => ⟨S8192x8192, .i1⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .i1⟩
  | .hbm, ⟨29, _⟩ => ⟨S8192x8192, .i1⟩
  | .hbm, ⟨30, _⟩ => ⟨S8192x8192, .i1⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i1⟩
  | .hbm, ⟨37, _⟩ => ⟨S8192x8192, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  natLt_1_32 : 1 < 32
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.AccBits.lean ====
/-
  The two running sums the kernel carries across its 64 grid points, as functions of the blocks the points are handed.

  Point `n` (row-major over the 8 × 8 grid) is handed a block of rows of the predictions for its row tile, one for its
  column tile, and the labels of both tiles. The body first clears both sums at the first point, then adds the tile's
  masked distance sum to the first and the tile's pair count to the second. `sumAfter B n` and `cntAfter B n` are what
  the two sums hold after `n` points; after all 64 they are what the kernel writes out.
-/
import proofs.«128166_j24773371363367_1_alg».proof.Proof.Gen.Kernel.Skeleton
import proofs.«128166_j24773371363367_1_alg».proof.Proof.Gen.Kernel.Launch

noncomputable section

namespace Cert.Kernel.Acc

open Idealize.ShloMosaic Cert.Kernel Cert.Kernel.Gen

variable {F : FTy → Type} [FloatOps F]

/-- The `n`-th grid point, `n` read modulo 64. -/
def pt (n : Nat) : Fin grid0.N := ⟨n % 64, by rw [N_0]; exact Nat.mod_lt _ (by decide)⟩

theorem pt_val (n : Nat) : (pt n).val = n % 64 := rfl

/-- What the points are handed: per point the row tile's and the column tile's block of predictions, and the two
    tiles' labels (a column and a row of words). -/
structure Blocks (F : FTy → Type) [FloatOps F] where
  rows : Nat → Vec F S1024x256 .f32
  cols : Nat → Vec F S1024x256 .f32
  rowLab : Nat → Vec F S1024x1 .i32
  colLab : Nat → Vec F S1x1024 .i32

/-- The distance sum after `n` points: cleared, then one tile's masked distances added per point. -/
def sumAfter (B : Blocks F) : Nat → Vec F S1x1 .f32
  | 0 => k0_pay4 (F := F)
  | n + 1 => k0_pay2 (k0_pay6 (B.rows n) (B.cols n)) (k0_pay7 (grid0.coords (pt n))) (k0_pay8 (F := F) (B.rowLab n)) (k0_pay9 (F := F) (B.colLab n)) (sumAfter B n)

/-- The pair count after `n` points: cleared, then one tile's count added per point. -/
def cntAfter (B : Blocks F) : Nat → Vec F S1x1 .f32
  | 0 => k0_pay5 (F := F)
  | n + 1 => k0_pay3 (k0_pay7 (grid0.coords (pt n))) (k0_pay8 (F := F) (B.rowLab n)) (k0_pay9 (F := F) (B.colLab n)) (cntAfter B n)

theorem sumAfter_succ (B : Blocks F) (n : Nat) : sumAfter B (n + 1)
    = k0_pay2 (k0_pay6 (B.rows n) (B.cols n)) (k0_pay7 (grid0.coords (pt n))) (k0_pay8 (F := F) (B.rowLab n)) (k0_pay9 (F := F) (B.colLab n)) (sumAfter B n) := rfl

theorem cntAfter_succ (B : Blocks F) (n : Nat) : cntAfter B (n + 1)
    = k0_pay3 (k0_pay7 (grid0.coords (pt n))) (k0_pay8 (F := F) (B.rowLab n)) (k0_pay9 (F := F) (B.colLab n)) (cntAfter B n) := rfl

/-- Point `n` of the row-major 8 × 8 grid is tile `(n / 8, n % 8)`. -/
theorem coords_pt : ∀ t : Fin grid0.N, ((grid0.coords t) 0).val = t.val / 8 ∧ ((grid0.coords t) 1).val = t.val % 8 := by
  decide +kernel

end Cert.Kernel.Acc

end
-- ==== Proof.DataBits.lean ====
import proofs.«128166_j24773371363367_1_alg».proof.Proof.Gen.Kernel.Launch
import proofs.«128166_j24773371363367_1_alg».proof.Proof.Gen.Kernel.Skeleton
import proofs.«128166_j24773371363367_1_alg».proof.Proof.Gen.Kernel.Points
import Idealize.ShloMosaic.Lib.Pipeline.FrameBody
import Idealize.ShloMosaic.Lib.Pipeline.FrameSuffix
import Idealize.ShloMosaic.Lib.Tactic
import proofs.«128166_j24773371363367_1_alg».proof.Proof.AccBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel region finds them

Before the region the host reshapes the labels twice (a column and a row of the same 8192 words); after it the host
reads the two sums out, divides and scales. -/

/-- Core `c`'s buffer contents when the region is entered: the launch contents after the two reshapes. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two reshapes, the region, and the five host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-! ## The blocks the grid points are handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the point before
    (the block index has not moved), for any proof data that reads the arrays as found and leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from the point before
    (the block index has not moved), for any proof data that reads the arrays as found and leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from the point before
    (the block index has not moved), for any proof data that reads the arrays as found and leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from the point before
    (the block index has not moved), for any proof data that reads the arrays as found and leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The blocks of all 64 points, as the running sums read them (point `n` modulo 64). -/
def blocks (c : Dev nD) : Acc.Blocks F where
  rows n := iblk m c 0 (Acc.pt n)
  cols n := iblk m c 1 (Acc.pt n)
  rowLab n := iblk m c 2 (Acc.pt n)
  colLab n := iblk m c 3 (Acc.pt n)

theorem pt_self (t : Fin cfg0.N) : Acc.pt t.val = t :=
  Fin.ext (Nat.mod_eq_of_lt (lt_of_lt_of_eq t.isLt (show cfg0.N = 64 from N_0)))

/-- One more point: the new distance sum is the body's sum payload of the point's blocks and the sum so far. -/
theorem sum_step (c : Dev nD) (t : Fin cfg0.N) : Acc.sumAfter (blocks m c) (t.val + 1)
    = k0_pay2 (k0_pay6 (iblk m c 0 t) (iblk m c 1 t)) (k0_pay7 (grid0.coords t)) (k0_pay8 (F := F) (iblk m c 2 t)) (k0_pay9 (F := F) (iblk m c 3 t)) (Acc.sumAfter (blocks m c) t.val) := by
  rw [Acc.sumAfter_succ]; show k0_pay2 (k0_pay6 (iblk m c 0 (Acc.pt t.val)) (iblk m c 1 (Acc.pt t.val))) (k0_pay7 (grid0.coords (Acc.pt t.val))) (k0_pay8 (F := F) (iblk m c 2 (Acc.pt t.val))) (k0_pay9 (F := F) (iblk m c 3 (Acc.pt t.val))) _ = _; rw [pt_self]

/-- One more point: the new pair count likewise. -/
theorem cnt_step (c : Dev nD) (t : Fin cfg0.N) : Acc.cntAfter (blocks m c) (t.val + 1)
    = k0_pay3 (k0_pay7 (grid0.coords t)) (k0_pay8 (F := F) (iblk m c 2 t)) (k0_pay9 (F := F) (iblk m c 3 t)) (Acc.cntAfter (blocks m c) t.val) := by
  rw [Acc.cntAfter_succ]; show k0_pay3 (k0_pay7 (grid0.coords (Acc.pt t.val))) (k0_pay8 (F := F) (iblk m c 2 (Acc.pt t.val))) (k0_pay9 (F := F) (iblk m c 3 (Acc.pt t.val))) _ = _; rw [pt_self]

/-! ## The proof data -/

/-- The two scratch buffers that carry the running sums between points. -/
abbrev scS : Memref sig .tc .vmem S1x1 .f32 := Memref.whole cc0_scratch0
abbrev scN : Memref sig .tc .vmem S1x1 .f32 := Memref.whole cc0_scratch1

/-- Between points the two scratch buffers hold the running sums; before the first point, anything. -/
def PhiS (c : Dev nD) : ℕ → sProp 𝕄
  | 0 => iprop((∃ d, owns (c : Thread nD τ) scS fullShare d) ∗ (∃ d, owns (c : Thread nD τ) scN fullShare d))
  | n + 1 => iprop(owns (c : Thread nD τ) scS fullShare (Acc.sumAfter (blocks m c) (n + 1)) ∗ owns (c : Thread nD τ) scN fullShare (Acc.cntAfter (blocks m c) (n + 1)))

/-- The proof data of the one pipeline on core `c`: the arrays as found; after the body at point `t` every input's buffer
    still at its block and the two outputs' at the running sums after `t + 1` points; the predictions' array, read by two
    windows, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Acc.sumAfter (blocks m c) (t.val + 1)
    | ⟨5, _⟩ => Acc.cntAfter (blocks m c) (t.val + 1)
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = Acc.sumAfter (blocks m c) (t.val + 1) := by dsimp only [dats]
theorem after5 (c : Dev nD) (t : Fin cfg0.N) : (dats m 0 c).after 5 t = Acc.cntAfter (blocks m c) (t.val + 1) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

end Cert.Kernel.Frm
end
-- ==== Proof.LibWholeStore.lean ====
import Idealize.ShloMosaic.Lib.Pipeline.FrameBody
import Idealize.ShloMosaic.Lib.Pipeline.Value

/-!
# A store through the whole of a buffer, read back

A buffer of shape `S` is written through a list of pieces, the last written first. When the last
store's rectangle is the whole shape (offset zero on every axis, extent the shape's), what the buffer
holds afterwards, read through the view, is that store's payload: every index lies in the rectangle,
and the rectangle's embedding is the identity. Nothing is asked of the earlier stores or of the
contents before them.
-/

namespace Idealize.ShloMosaic.View

variable {Val : EltTy → Type} {sig : RefSig} {κ : Kind} {sp : Space} {S : Shape} {e : EltTy}

/-- After a list of stores whose LAST one (the head) fills the whole shape with `w`, the view reads `w`. -/
theorem read_writes_whole_head (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h; funext y
  have e := View.read_writes_cons_emb (Val := Val) v f (Rect.whole S) w L y
  rw [Rect.emb_whole_apply] at e
  exact e

end Idealize.ShloMosaic.View
-- ==== Proof.LibWholeLoad.lean ====
import Idealize.ShloMosaic.Lib.Pipeline.FrameBody
import Idealize.ShloMosaic.Lib.Pipeline.Value

/-!
# A load through the whole of a buffer, after stores the last of which filled it

A buffer of shape `S` has been written through a list of pieces, the last written first. When the last
store's rectangle is the whole shape, a load through the whole shape reads that store's payload, whatever the
earlier stores were: every index lies in the last rectangle, whose embedding is the identity.
-/

namespace Idealize.ShloMosaic.View

variable {Val : EltTy → Type} [∀ e, Nonempty (Val e)] {sig : RefSig} {κ : Kind} {sp : Space} {S : Shape} {e : EltTy}

/-- A whole-shape load of what a list of stores left, the LAST of them (the head) a whole-shape store of `w`, reads `w`. -/
theorem readCov_whole_head (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.BodyBits.lean ====
import proofs.«128166_j24773371363367_1_alg».proof.Proof.Gen.Kernel.Launch
import proofs.«128166_j24773371363367_1_alg».proof.Proof.Gen.Kernel.Skeleton
import proofs.«128166_j24773371363367_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«128166_j24773371363367_1_alg».proof.Proof.LibWholeStore
import proofs.«128166_j24773371363367_1_alg».proof.Proof.LibWholeLoad

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears its running sums exactly when both grid coordinates are zero: the condition of its one branch,
    as the scalar chain the body computes from the coordinates. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- Over the grid it holds at point 0 only. -/
theorem first_iff : ∀ t : Fin cfg0.N, first (grid0.coords t) ↔ t.val = 0 :=
  (by decide +kernel : ∀ t : Fin grid0.N, first (grid0.coords t) ↔ t.val = 0)

/-- The zero offsets of a rank-2 rectangle, however spelt. -/
theorem hz2 : (![0, 0] : Fin 2 → Nat) = fun _ => 0 := funext fun a => by fin_cases a <;> rfl

set_option maxHeartbeats 1000000 in
/-- The body on whole staging buffers, after the first grid point: the tile is added to both running sums. The four inputs are left as found;
    the two output buffers and the two scratch buffers end at the new sums. -/
theorem runLater (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : ¬ first i)
    (x0 x1 : Vec F S1024x256 .f32) (tr : Vec F S1024x1 .i32) (tc : Vec F S1x1024 .i32) (s n : Vec F S1x1 .f32)
    (E : Set ℕ) (K : PUnit → sProp 𝕄) :
        iprop(owns (c : Thread nD τ) arg2 fullShare x0 ∗ owns (c : Thread nD τ) arg3 fullShare x1 ∗ owns (c : Thread nD τ) arg4 fullShare tr ∗ owns (c : Thread nD τ) arg5 fullShare tc
            ∗ (∃ d, owns (c : Thread nD τ) arg6 fullShare d) ∗ (∃ d, owns (c : Thread nD τ) arg7 fullShare d)
            ∗ owns (c : Thread nD τ) arg8 fullShare s ∗ owns (c : Thread nD τ) arg9 fullShare n
            ∗ (iprop(owns (c : Thread nD τ) arg2 fullShare x0 ∗ owns (c : Thread nD τ) arg3 fullShare x1 ∗ owns (c : Thread nD τ) arg4 fullShare tr ∗ owns (c : Thread nD τ) arg5 fullShare tc
                ∗ owns (c : Thread nD τ) arg6 fullShare (k0_pay2 (k0_pay6 x0 x1) (k0_pay7 i) (k0_pay8 (F := F) tr) (k0_pay9 (F := F) tc) s)
                ∗ owns (c : Thread nD τ) arg7 fullShare (k0_pay3 (k0_pay7 i) (k0_pay8 (F := F) tr) (k0_pay9 (F := F) tc) n)
                ∗ owns (c : Thread nD τ) arg8 fullShare (k0_pay2 (k0_pay6 x0 x1) (k0_pay7 i) (k0_pay8 (F := F) tr) (k0_pay9 (F := F) tc) s)
                ∗ owns (c : Thread nD τ) arg9 fullShare (k0_pay3 (k0_pay7 i) (k0_pay8 (F := F) tr) (k0_pay9 (F := F) tc) n)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K := by
    simp only [cc0__kernel_eq_skeleton]; unfold cc0__kernel_skel

    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg8.eq_unread hf8; obtain rfl := harg9.eq_unread hf9
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; swap; · iexact H6
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H7]
    · iexists _; isplitr; swap; · iexact H7
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H8]
    · iexists _; isplitr; swap; · iexact H8
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    · iexists _; isplitr; swap; · iexact H9
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]

set_option maxHeartbeats 1000000 in
/-- The body on whole staging buffers, at the first grid point: both running sums are cleared, then the tile is added. The four inputs are left as found;
    the two output buffers and the two scratch buffers end at the new sums. -/
theorem runFirst (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : first i)
    (x0 x1 : Vec F S1024x256 .f32) (tr : Vec F S1024x1 .i32) (tc : Vec F S1x1024 .i32)
    (E : Set ℕ) (K : PUnit → sProp 𝕄) :
        iprop(owns (c : Thread nD τ) arg2 fullShare x0 ∗ owns (c : Thread nD τ) arg3 fullShare x1 ∗ owns (c : Thread nD τ) arg4 fullShare tr ∗ owns (c : Thread nD τ) arg5 fullShare tc
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare tr ∗ owns (c : Thread nD τ) arg5 fullShare tc
                ∗ owns (c : Thread nD τ) arg6 fullShare (k0_pay2 (k0_pay6 x0 x1) (k0_pay7 i) (k0_pay8 (F := F) tr) (k0_pay9 (F := F) tc) (k0_pay4 (F := F)))
                ∗ owns (c : Thread nD τ) arg7 fullShare (k0_pay3 (k0_pay7 i) (k0_pay8 (F := F) tr) (k0_pay9 (F := F) tc) (k0_pay5 (F := F)))
                ∗ owns (c : Thread nD τ) arg8 fullShare (k0_pay2 (k0_pay6 x0 x1) (k0_pay7 i) (k0_pay8 (F := F) tr) (k0_pay9 (F := F) tc) (k0_pay4 (F := F)))
                ∗ owns (c : Thread nD τ) arg9 fullShare (k0_pay3 (k0_pay7 i) (k0_pay8 (F := F) tr) (k0_pay9 (F := F) tc) (k0_pay5 (F := F)))) -∗ K ⟨⟩))
          ⊢ wp frame (wpE (defs₀ (F := F)) Variants.none c none) E (cc0__kernel i arg2 harg2 arg3 harg3 arg4 harg4 arg5 harg5 arg6 harg6 arg7 harg7 arg8 harg8 arg9 harg9) K := by
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3

    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; swap; · iexact H6
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H7]
    · iexists _; isplitr; swap; · iexact H7
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H8]
    · iexists _; isplitr; swap; · iexact H8
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    · iexists _; isplitr; swap; · iexact H9
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]

end Cert.Kernel.Frm
end
-- ==== Proof.ObligBits.lean ====
import proofs.«128166_j24773371363367_1_alg».proof.Proof.Gen.Kernel.Launch
import proofs.«128166_j24773371363367_1_alg».proof.Proof.Gen.Kernel.Skeleton
import proofs.«128166_j24773371363367_1_alg».proof.Proof.Gen.Kernel.Points
import Idealize.ShloMosaic.Lib.Pipeline.FrameBody
import Idealize.ShloMosaic.Lib.Pipeline.FrameSuffix
import Idealize.ShloMosaic.Lib.Tactic
import proofs.«128166_j24773371363367_1_alg».proof.Proof.DataBits
import proofs.«128166_j24773371363367_1_alg».proof.Proof.BodyBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point: from the blocks and the sums so far to the blocks and the sums one point on -/

/-- Window 0's staging buffer in use at point `t`, and that it is a whole buffer. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
/-- Window 1's staging buffer in use at point `t`, and that it is a whole buffer. -/
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
/-- Window 2's staging buffer in use at point `t`, and that it is a whole buffer. -/
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
/-- Window 3's staging buffer in use at point `t`, and that it is a whole buffer. -/
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
/-- Window 4's staging buffer in use at point `t`, and that it is a whole buffer. -/
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- Window 5's staging buffer in use at point `t`, and that it is a whole buffer. -/
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- What the body is handed at point `t`: the invariant, nothing owed, and every window's buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem sum_zero (c : Dev nD) : Acc.sumAfter (blocks m c) 0 = k0_pay4 (F := F) := rfl
theorem cnt_zero (c : Dev nD) : Acc.cntAfter (blocks m c) 0 = k0_pay5 (F := F) := rfl

set_option maxHeartbeats 2000000 in
/-- The body at any point. At the first point the scratch buffers hold anything and the body clears them before adding
    the tile; at a later point they hold the sums the point before left. Either way the inputs' buffers are left at their
    blocks and the outputs' and the scratch buffers at the sums one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = iprop(owns (c : Thread nD τ) scS fullShare (Acc.sumAfter (blocks m c) (t.val + 1)) ∗ owns (c : Thread nD τ) scN fullShare (Acc.cntAfter (blocks m c) (t.val + 1))) from rfl,
    show (dats m 0 c).Φ t.castSucc = PhiS m c t.val from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [sum_step, cnt_step]
  by_cases hz : t.val = 0
  · have hf : first (grid0.coords t) := (first_iff t).mpr hz
    rw [hz, sum_zero, cnt_zero, show PhiS m c 0 = iprop((∃ d, owns (c : Thread nD τ) scS fullShare d) ∗ (∃ d, owns (c : Thread nD τ) scN fullShare d)) from rfl]
    iintro ⟨⟨HS, HN⟩, Ho, ⟨%d0, H0⟩, ⟨%d1, H1⟩, ⟨%d2, H2⟩, ⟨%d3, H3⟩, ⟨%d4, H4⟩, ⟨%d5, H5⟩⟩
    iapply (runFirst c (grid0.coords t) (ms0 t) (hs0 t) (ms1 t) (hs1 t) (ms2 t) (hs2 t) (ms3 t) (hs3 t) (ms4 t) (hs4 t) (ms5 t) (hs5 t) scS (Memref.isWhole_whole _) scN (Memref.isWhole_whole _) hf
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    isplitl [HN]; · iexact HN
    iintro ⟨H0, H1, H2, H3, H4, H5, HS, HN⟩
    isplitl [HS HN]
    · isplitl [HS]; · iexact HS
      iexact HN
    isplitl [Ho]; · iexact Ho
    isplitl [H0]; · iexact H0
    isplitl [H1]; · iexact H1
    isplitl [H2]; · iexact H2
    isplitl [H3]; · iexact H3
    isplitl [H4]; · iexact H4
    iexact H5
  · have hf : ¬ first (grid0.coords t) := fun h => hz ((first_iff t).mp h)
    obtain ⟨n, hn⟩ : ∃ n, t.val = n + 1 := ⟨t.val - 1, by omega⟩
    rw [hn, show PhiS m c (n + 1) = iprop(owns (c : Thread nD τ) scS fullShare (Acc.sumAfter (blocks m c) (n + 1)) ∗ owns (c : Thread nD τ) scN fullShare (Acc.cntAfter (blocks m c) (n + 1))) from rfl]
    iintro ⟨⟨HS, HN⟩, Ho, ⟨%d0, H0⟩, ⟨%d1, H1⟩, ⟨%d2, H2⟩, ⟨%d3, H3⟩, ⟨%d4, H4⟩, ⟨%d5, H5⟩⟩
    iapply (runLater c (grid0.coords t) (ms0 t) (hs0 t) (ms1 t) (hs1 t) (ms2 t) (hs2 t) (ms3 t) (hs3 t) (ms4 t) (hs4 t) (ms5 t) (hs5 t) scS (Memref.isWhole_whole _) scN (Memref.isWhole_whole _) hf
      (iblk m c 0 t) (iblk m c 1 t) (iblk m c 2 t) (iblk m c 3 t) (Acc.sumAfter (blocks m c) (n + 1)) (Acc.cntAfter (blocks m c) (n + 1)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    isplitl [HN]; · iexact HN
    iintro ⟨H0, H1, H2, H3, H4, H5, HS, HN⟩
    isplitl [HS HN]
    · isplitl [HS]; · iexact HS
      iexact HN
    isplitl [Ho]; · iexact Ho
    isplitl [H0]; · iexact H0
    isplitl [H1]; · iexact H1
    isplitl [H2]; · iexact H2
    isplitl [H3]; · iexact H3
    isplitl [H4]; · iexact H4
    iexact H5

/-- The body obligation of the pipeline, at every point. -/
theorem body_obligation (c : Dev nD) : BodyObligation (dats (F := F) m 0 c) (defs₀ (F := F)) Variants.none () Set.univ := fun t => by
  rw [bigSep_W0, bigSep_W0]
  exact sound_body m c t

end Cert.Kernel.Frm
end
-- ==== Proof.LaunchBits.lean ====
import proofs.«128166_j24773371363367_1_alg».proof.Proof.Gen.Kernel.Launch
import proofs.«128166_j24773371363367_1_alg».proof.Proof.Gen.Kernel.Skeleton
import proofs.«128166_j24773371363367_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Rules.PointsTo
import proofs.«128166_j24773371363367_1_alg».proof.Proof.ObligBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays of the pipeline, one by one

The predictions' array is read through two windows (row tiles and column tiles), each holding half of it; the two
label arrays and the two results are held whole. -/

theorem arrays_explicit (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  unfold Dat.arrays
  rw [bigSep_W0]
  simp only [(arr_whole0 0).set_eq_univ, (arr_whole0 2).set_eq_univ, (arr_whole0 3).set_eq_univ,
    (arr_whole0 4).set_eq_univ, (arr_whole0 5).set_eq_univ]
  rfl

theorem arrBufs_explicit (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

/-- At the region's entry the whole arrays become the pipeline's: the predictions' array split in two halves. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrays_explicit, arrBufs_explicit]
  iintro ⟨B0, B2, B3, B4, B5⟩
  ihave Hs := (pointsTo_share (PosShare.mem_left_op_right fullShare)).1 $$ B0
  icases Hs with ⟨B0l, B0r⟩
  isplitl [B0l]; · iexact B0l
  isplitl [B0r]; · iexact B0r
  isplitl [B2]; · iexact B2
  isplitl [B3]; · iexact B3
  isplitl [B4]; · iexact B4
  iexact B5

/-! ## The invariant at the two ends of the region -/

theorem PhiS_zero (c : Dev nD) :
    (PhiS m c 0 : sProp 𝕄) = Pipeline.scopedRest (Ix := Unit) (Name := ℕ) (U := UR sig nD τ) (Lvl := ℕ) (Val := Elt F) spec0 c := by
  rw [scopedRest0_eq]
  show iprop((∃ d, owns (c : Thread nD τ) scS fullShare d) ∗ (∃ d, owns (c : Thread nD τ) scN fullShare d)) = _
  simp only [scS, scN, owns_whole]
  rfl

theorem PhiS_last (c : Dev nD) : (dats m 0 c).Φ (Fin.last cfg0.N)
    = iprop(owns (c : Thread nD τ) scS fullShare (Acc.sumAfter (blocks m c) 64) ∗ owns (c : Thread nD τ) scN fullShare (Acc.cntAfter (blocks m c) 64)) := rfl

theorem hout (c : Dev nD) : (dats m 0 c).Φ (Fin.last cfg0.N)
    ⊢ iprop(emp ∗ Pipeline.scopedRest (Ix := Unit) (Name := ℕ) (U := UR sig nD τ) (Lvl := ℕ) (Val := Elt F) spec0 c) := by
  rw [PhiS_last, ← PhiS_zero m c]
  show _ ⊢ iprop(emp ∗ (∃ d, owns (c : Thread nD τ) scS fullShare d) ∗ (∃ d, owns (c : Thread nD τ) scN fullShare d))
  iintro ⟨HS, HN⟩
  isplitr; · iempintro
  isplitl [HS]; · iexists _; iexact HS
  iexists _; iexact HN

/-! ## The five host lines after the region -/

/-- The buffers those lines run within: the two results, and the buffers that bypass the region. -/
abbrev tailList : List (Ref sig .tc) := [main_v2_0, main_v2_1, main_arg1, main_v3, main_v4, main_v5, main_cst, main_v6]
abbrev tailS : Finset (DevRef τ sig) := (tailList.map (Proc.devRef (τ := τ) .tc)).toFinset

theorem mem_tailS (r : Ref sig .tc) (h : r ∈ tailList) : Proc.devRef (τ := τ) .tc r ∈ tailS :=
  List.mem_toFinset.mpr (List.mem_map_of_mem h)

/-- What the region leaves: the two results at their final contents, every other buffer as the region found it. -/
def Wexit (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- What the program ends with: the five lines run from there. -/
def Wend (c : Dev nD) : Valuation τ sig (Elt F) := StableHlo.after hostOps1 (Wexit m c)

theorem Wexit_sum (c : Dev nD) : Wexit m c (Proc.devRef .tc main_v2_0) = (dats m 0 c).arrAt 4 cfg0.N := by
  unfold Wexit
  rw [Function.update_of_ne (StableHlo.devRef_ne_of_ne (by decide)), Function.update_self]

theorem Wexit_cnt (c : Dev nD) : Wexit m c (Proc.devRef .tc main_v2_1) = (dats m 0 c).arrAt 5 cfg0.N := by
  unfold Wexit
  rw [Function.update_self]

theorem Wexit_rest (c : Dev nD) (b : Ref sig .tc) (h0 : b ≠ main_v2_0) (h1 : b ≠ main_v2_1) :
    Wexit m c (Proc.devRef .tc b) = V m c b := by
  unfold Wexit
  rw [Function.update_of_ne (StableHlo.devRef_ne_of_ne h1), Function.update_of_ne (StableHlo.devRef_ne_of_ne h0)]

theorem hostOps1_writes : (hostOps1 : List (HloOp τ sig (Elt F))).Forall fun op =>
    op.writes ⊆ (([main_v3, main_v4, main_v5, main_cst, main_v6] : List (Ref sig .tc)).map (Proc.devRef (τ := τ) .tc)).toFinset := by
  simp only [List.Forall, hostOps1, StableHlo.reshape_writes, StableHlo.binary_writes, StableHlo.nullary_writes, Finset.singleton_subset_iff,
    List.mem_toFinset, List.mem_map]
  exact ⟨⟨main_v3, by decide, rfl⟩, ⟨main_v4, by decide, rfl⟩, ⟨main_v5, by decide, rfl⟩, ⟨main_cst, by decide, rfl⟩, ⟨main_v6, by decide, rfl⟩⟩

/-- A buffer none of the five lines writes ends as the region left it. -/
theorem Wend_kept (c : Dev nD) (b : Ref sig .tc) (hb : b ∉ ([main_v3, main_v4, main_v5, main_cst, main_v6] : List (Ref sig .tc))) :
    Wend m c (Proc.devRef .tc b) = Wexit m c (Proc.devRef .tc b) :=
  StableHlo.after_of_writes_sub hostOps1 (Wexit m c) hostOps1_writes hb

theorem held_tail (c : Dev nD) (W : Valuation τ sig (Elt F)) :
    (StableHlo.held (c : Thread nD τ) tailS W : sProp 𝕄)
      = iprop((((c : Thread nD τ).loc main_v2_0) ↦{fullShare} W (Proc.devRef .tc main_v2_0)) ∗ (((c : Thread nD τ).loc main_v2_1) ↦{fullShare} W (Proc.devRef .tc main_v2_1))
          ∗ (((c : Thread nD τ).loc main_arg1) ↦{fullShare} W (Proc.devRef .tc main_arg1)) ∗ (((c : Thread nD τ).loc main_v3) ↦{fullShare} W (Proc.devRef .tc main_v3))
          ∗ (((c : Thread nD τ).loc main_v4) ↦{fullShare} W (Proc.devRef .tc main_v4)) ∗ (((c : Thread nD τ).loc main_v5) ↦{fullShare} W (Proc.devRef .tc main_v5))
          ∗ (((c : Thread nD τ).loc main_cst) ↦{fullShare} W (Proc.devRef .tc main_cst)) ∗ (((c : Thread nD τ).loc main_v6) ↦{fullShare} W (Proc.devRef .tc main_v6))) := by
  unfold StableHlo.held tailS
  rw [bigSep_eq_bigSepL _ (List.Nodup.map (Proc.devRef_injective _) (by decide))]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  have h20 := mem_tailS main_v2_0 (by decide)
  have h21 := mem_tailS main_v2_1 (by decide)
  have h3 := mem_tailS main_v3 (by decide)
  have h4 := mem_tailS main_v4 (by decide)
  have h5 := mem_tailS main_v5 (by decide)
  have hc := mem_tailS main_cst (by decide)
  have h6 := mem_tailS main_v6 (by decide)
  simp only [hostOps1, List.mem_cons, List.mem_nil_iff, or_false] at hop
  rcases hop with rfl | rfl | rfl | rfl | rfl
  · rw [StableHlo.reshape_bufs]; exact Finset.insert_subset h20 (Finset.singleton_subset_iff.mpr h3)
  · rw [StableHlo.reshape_bufs]; exact Finset.insert_subset h21 (Finset.singleton_subset_iff.mpr h4)
  · rw [StableHlo.binary_bufs]; exact Finset.insert_subset h3 (Finset.insert_subset h4 (Finset.singleton_subset_iff.mpr h5))
  · rw [StableHlo.nullary_bufs]; exact Finset.singleton_subset_iff.mpr hc
  · rw [StableHlo.binary_bufs]; exact Finset.insert_subset h5 (Finset.insert_subset hc (Finset.singleton_subset_iff.mpr h6))

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What bypasses the region, at the program's end. -/
def Zend (c : Dev nD) : sProp 𝕄 :=
  Pipeline.unscopedRest (Ix := Unit) (Name := ℕ) (U := UR sig nD τ) (Lvl := ℕ) spec0 c (fun b => Wend m c (Proc.devRef .tc b))

set_option backward.isDefEq.respectTransparency.types false in
/-- The five lines, from the region's exit: they run within the two results and the bypassing buffers, write neither
    result, and hand every array of the pipeline back as the region left it. -/
theorem htail (c : Dev nD) (Q' : PUnit → sProp 𝕄) :
    iprop((iprop((dats m 0 c).arrays ((dats m 0 c).arrAt · cfg0.N) ∗ Zend m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Pipeline.Cfg.toPCfg (Val := Elt F) (cfgs q)) defs₀) (Variants.lift Variants.none) (c : Thread nD τ) none) Set.univ
          (Pipeline.chain [StableHlo.seq hostOps1]) Q' := by
  have hW := held_tail c (Wexit m c)
  have hW' := held_tail c (Wend m c)
  rw [Wexit_sum, Wexit_cnt, Wexit_rest m c main_arg1 (by decide) (by decide), Wexit_rest m c main_v3 (by decide) (by decide),
    Wexit_rest m c main_v4 (by decide) (by decide), Wexit_rest m c main_v5 (by decide) (by decide),
    Wexit_rest m c main_cst (by decide) (by decide), Wexit_rest m c main_v6 (by decide) (by decide)] at hW
  rw [Wend_kept m c main_v2_0 (by decide), Wend_kept m c main_v2_1 (by decide), Wexit_sum, Wexit_cnt] at hW'
  unfold Zend
  rw [arrays_explicit, unscopedRest0_eq, unscopedRest0_eq]
  iintro ⟨Hk, Hb, ⟨A0, A1, A2, A3, A4, A5⟩, ⟨R1, R3, R4, R5, Rc, R6⟩⟩
  ihave Hh := (Entails.of_eq hW.symm) $$ [A4 A5 R1 R3 R4 R5 Rc R6]
  · isplitl [A4]; · iexact A4
    isplitl [A5]; · iexact A5
    isplitl [R1]; · iexact R1
    isplitl [R3]; · iexact R3
    isplitl [R4]; · iexact R4
    isplitl [R5]; · iexact R5
    isplitl [Rc]; · iexact Rc
    iexact R6
  ihave Hw := (Pipeline.wp_seqs_then (fun q => Pipeline.Cfg.toPCfg (Val := Elt F) (cfgs q)) defs₀ Variants.none c tailS [] [hostOps1] tail_sub tail_fresh (Wexit m c)) $$ [Hb Hh]
  · isplitl [Hb] <;> iassumption
  iapply Hw
  iintro ⟨Hb, Hh⟩
  rw [Pipeline.chain_nil, wp_pure]
  imodintro
  ihave Hh' := (Entails.of_eq (show (StableHlo.held (c : Thread nD τ) tailS (StableHlo.after ([hostOps1] : List (List (HloOp τ sig (Elt F)))).flatten (Wexit m c)) : sProp 𝕄) = _ from hW')) $$ Hh
  icases Hh' with ⟨A4, A5, R1, R3, R4, R5, Rc, R6⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R1]; · iexact R1
  isplitl [R3]; · iexact R3
  isplitl [R4]; · iexact R4
  isplitl [R5]; · iexact R5
  isplitl [Rc]; · iexact Rc
  iexact R6

/-! ## The run -/

theorem hostOps0_writes : (hostOps0 : List (HloOp τ sig (Elt F))).Forall fun op =>
    op.writes ⊆ (([main_v0, main_v1] : List (Ref sig .tc)).map (Proc.devRef (τ := τ) .tc)).toFinset := by
  simp only [List.Forall, hostOps0, StableHlo.reshape_writes, Finset.singleton_subset_iff, List.mem_toFinset, List.mem_map]
  exact ⟨⟨main_v0, by decide, rfl⟩, ⟨main_v1, by decide, rfl⟩⟩

/-- The two reshapes before the region write neither argument. -/
theorem V_kept (c : Dev nD) (b : Ref sig .tc) (hb : b ∉ ([main_v0, main_v1] : List (Ref sig .tc))) :
    V m c b = m ((c : Thread nD τ).loc b) :=
  StableHlo.after_of_writes_sub (List.flatten [hostOps0]) (fun b => m (c, b))
    (by simp only [List.flatten_cons, List.flatten_nil, List.append_nil]; exact hostOps0_writes) hb

/-- The predictions' array ends as launched: no window writes it, and no host line does. -/
theorem arg0_final (c : Dev nD) : (dats m 0 c).arrAt 0 cfg0.N = m ((c : Thread nD τ).loc main_arg0) :=
  ((dats (F := F) m 0 c).arrAt_in 0 rfl _).trans ((A_eq m c 0).trans (V_kept m c main_arg0 (by decide)))

/-- The labels' array ends as launched. -/
theorem arg1_final (c : Dev nD) : Wend m c (Proc.devRef .tc main_arg1) = m ((c : Thread nD τ).loc main_arg1) :=
  (Wend_kept m c main_arg1 (by decide)).trans ((Wexit_rest m c main_arg1 (by decide) (by decide)).trans (V_kept m c main_arg1 (by decide)))

/-- What the run ends with: the result at what the five host lines make of the two sums, the arguments as launched. -/
def Qrun : PUnit × MemSt nD τ sig (Elt F) → Prop := fun r => ∀ c : Dev nD,
  r.2.mem ((c : Thread nD τ).loc main_v6) = Wend m c (Proc.devRef .tc main_v6)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of the
    program on the TensorCores terminates, nothing faulting, and every final state has the result at `Wend`'s value and
    both arguments as launched. -/
theorem run_main : θ_run defs (onTc (τ := τ) (main (F := F))) (s₀ m ρ) (Qrun m) :=
  Pipeline.θ_run_region_noSem_pf_tail (fun q => Pipeline.Cfg.toPCfg (Val := Elt F) (cfgs q)) (fun q => (cfgs q).toPCfg_adm) (dats m) () cellOf_inj (0 : Fin 1)
    winFacts₀0 (Pipeline.PreFacts.none _) emb₁ defs₀ Variants.none m ρ main
    (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Zend m)
    (hX := fun c => by
      rw [Pipeline.unscopedRestP_none]
      iintro H; isplitr; · iempintro
      iexact H)
    (hin := fun c => by
      rw [show (dats m 0 c).Φ 0 = PhiS m c 0 from rfl, PhiS_zero]
      iintro ⟨-, -, H⟩; iexact H)
    (hout := hout m)
    (htail := htail m)
    (QY := fun c s => ∀ b ∈ Pipeline.restRefs sig spec0, s.mem ((c : Thread nD τ).loc b) = Wend m c (Proc.devRef .tc b))
    (hY := fun c s' => by
      iintro ⟨-, HU, HSI⟩
      unfold Zend Pipeline.unscopedRest
      imodintro
      iapply (pointsTo_read_all (Pipeline.restRefs sig spec0) (fun b => (c : Thread nD τ).loc b) (fun b => Wend m c (Proc.devRef .tc b)) s')
      isplitl [HU] <;> iassumption)
    (hQ := fun s h c => ⟨(h c).2.2 main_v6 (by decide), ((h c).1 0).trans (arg0_final m c),
      ((h c).2.2 main_arg1 (by decide)).trans (arg1_final m c)⟩)

/-- info: 'Cert.Kernel.Frm.run_main' depends on axioms: [propext, Classical.choice, Quot.sound] -/
#guard_msgs in #print axioms run_main

/-- The frame: the program runs to its end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Frm
end
-- ==== Proof.AccIdeal.lean ====
/-
  The two running sums the kernel carries across its 64 grid points, as functions of the blocks the points are handed.

  Point `n` (row-major over the 8 × 8 grid) is handed a block of rows of the predictions for its row tile, one for its
  column tile, and the labels of both tiles. The body first clears both sums at the first point, then adds the tile's
  masked distance sum to the first and the tile's pair count to the second. `sumAfter B n` and `cntAfter B n` are what
  the two sums hold after `n` points; after all 64 they are what the kernel writes out.
-/
import proofs.«128166_j24773371363367_1_alg».proof.Proof.Gen.KernelIdeal.Skeleton
import proofs.«128166_j24773371363367_1_alg».proof.Proof.Gen.KernelIdeal.Launch

noncomputable section

namespace Cert.KernelIdeal.Acc

open Idealize.ShloMosaic Cert.KernelIdeal Cert.KernelIdeal.Gen

variable {F : FTy → Type} [FloatOps F]

/-- The `n`-th grid point, `n` read modulo 64. -/
def pt (n : Nat) : Fin grid0.N := ⟨n % 64, by rw [N_0]; exact Nat.mod_lt _ (by decide)⟩

theorem pt_val (n : Nat) : (pt n).val = n % 64 := rfl

/-- What the points are handed: per point the row tile's and the column tile's block of predictions, and the two
    tiles' labels (a column and a row of words). -/
structure Blocks (F : FTy → Type) [FloatOps F] where
  rows : Nat → Vec F S1024x256 .f32
  cols : Nat → Vec F S1024x256 .f32
  rowLab : Nat → Vec F S1024x1 .i32
  colLab : Nat → Vec F S1x1024 .i32

/-- The distance sum after `n` points: cleared, then one tile's masked distances added per point. -/
def sumAfter (B : Blocks F) : Nat → Vec F S1x1 .f32
  | 0 => k0_pay4 (F := F)
  | n + 1 => k0_pay2 (k0_pay6 (B.rows n) (B.cols n)) (k0_pay7 (grid0.coords (pt n))) (k0_pay8 (F := F) (B.rowLab n)) (k0_pay9 (F := F) (B.colLab n)) (sumAfter B n)

/-- The pair count after `n` points: cleared, then one tile's count added per point. -/
def cntAfter (B : Blocks F) : Nat → Vec F S1x1 .f32
  | 0 => k0_pay5 (F := F)
  | n + 1 => k0_pay3 (k0_pay7 (grid0.coords (pt n))) (k0_pay8 (F := F) (B.rowLab n)) (k0_pay9 (F := F) (B.colLab n)) (cntAfter B n)

theorem sumAfter_succ (B : Blocks F) (n : Nat) : sumAfter B (n + 1)
    = k0_pay2 (k0_pay6 (B.rows n) (B.cols n)) (k0_pay7 (grid0.coords (pt n))) (k0_pay8 (F := F) (B.rowLab n)) (k0_pay9 (F := F) (B.colLab n)) (sumAfter B n) := rfl

theorem cntAfter_succ (B : Blocks F) (n : Nat) : cntAfter B (n + 1)
    = k0_pay3 (k0_pay7 (grid0.coords (pt n))) (k0_pay8 (F := F) (B.rowLab n)) (k0_pay9 (F := F) (B.colLab n)) (cntAfter B n) := rfl

/-- Point `n` of the row-major 8 × 8 grid is tile `(n / 8, n % 8)`. -/
theorem coords_pt : ∀ t : Fin grid0.N, ((grid0.coords t) 0).val = t.val / 8 ∧ ((grid0.coords t) 1).val = t.val % 8 := by
  decide +kernel

end Cert.KernelIdeal.Acc

end
-- ==== Proof.DataIdeal.lean ====
import proofs.«128166_j24773371363367_1_alg».proof.Proof.Gen.KernelIdeal.Launch
import proofs.«128166_j24773371363367_1_alg».proof.Proof.Gen.KernelIdeal.Skeleton
import proofs.«128166_j24773371363367_1_alg».proof.Proof.Gen.KernelIdeal.Points
import Idealize.ShloMosaic.Lib.Pipeline.FrameBody
import Idealize.ShloMosaic.Lib.Pipeline.FrameSuffix
import Idealize.ShloMosaic.Lib.Tactic
import proofs.«128166_j24773371363367_1_alg».proof.Proof.AccIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the kernel region finds them

Before the region the host reshapes the labels twice (a column and a row of the same 8192 words); after it the host
reads the two sums out, divides and scales. -/

/-- Core `c`'s buffer contents when the region is entered: the launch contents after the two reshapes. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two reshapes, the region, and the five host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-! ## The blocks the grid points are handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the point before
    (the block index has not moved), for any proof data that reads the arrays as found and leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from the point before
    (the block index has not moved), for any proof data that reads the arrays as found and leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from the point before
    (the block index has not moved), for any proof data that reads the arrays as found and leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from the point before
    (the block index has not moved), for any proof data that reads the arrays as found and leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The blocks of all 64 points, as the running sums read them (point `n` modulo 64). -/
def blocks (c : Dev nD) : Acc.Blocks F where
  rows n := iblk m c 0 (Acc.pt n)
  cols n := iblk m c 1 (Acc.pt n)
  rowLab n := iblk m c 2 (Acc.pt n)
  colLab n := iblk m c 3 (Acc.pt n)

theorem pt_self (t : Fin cfg0.N) : Acc.pt t.val = t :=
  Fin.ext (Nat.mod_eq_of_lt (lt_of_lt_of_eq t.isLt (show cfg0.N = 64 from N_0)))

/-- One more point: the new distance sum is the body's sum payload of the point's blocks and the sum so far. -/
theorem sum_step (c : Dev nD) (t : Fin cfg0.N) : Acc.sumAfter (blocks m c) (t.val + 1)
    = k0_pay2 (k0_pay6 (iblk m c 0 t) (iblk m c 1 t)) (k0_pay7 (grid0.coords t)) (k0_pay8 (F := F) (iblk m c 2 t)) (k0_pay9 (F := F) (iblk m c 3 t)) (Acc.sumAfter (blocks m c) t.val) := by
  rw [Acc.sumAfter_succ]; show k0_pay2 (k0_pay6 (iblk m c 0 (Acc.pt t.val)) (iblk m c 1 (Acc.pt t.val))) (k0_pay7 (grid0.coords (Acc.pt t.val))) (k0_pay8 (F := F) (iblk m c 2 (Acc.pt t.val))) (k0_pay9 (F := F) (iblk m c 3 (Acc.pt t.val))) _ = _; rw [pt_self]

/-- One more point: the new pair count likewise. -/
theorem cnt_step (c : Dev nD) (t : Fin cfg0.N) : Acc.cntAfter (blocks m c) (t.val + 1)
    = k0_pay3 (k0_pay7 (grid0.coords t)) (k0_pay8 (F := F) (iblk m c 2 t)) (k0_pay9 (F := F) (iblk m c 3 t)) (Acc.cntAfter (blocks m c) t.val) := by
  rw [Acc.cntAfter_succ]; show k0_pay3 (k0_pay7 (grid0.coords (Acc.pt t.val))) (k0_pay8 (F := F) (iblk m c 2 (Acc.pt t.val))) (k0_pay9 (F := F) (iblk m c 3 (Acc.pt t.val))) _ = _; rw [pt_self]

/-! ## The proof data -/

/-- The two scratch buffers that carry the running sums between points. -/
abbrev scS : Memref sig .tc .vmem S1x1 .f32 := Memref.whole cc0_scratch0
abbrev scN : Memref sig .tc .vmem S1x1 .f32 := Memref.whole cc0_scratch1

/-- Between points the two scratch buffers hold the running sums; before the first point, anything. -/
def PhiS (c : Dev nD) : ℕ → sProp 𝕄
  | 0 => iprop((∃ d, owns (c : Thread nD τ) scS fullShare d) ∗ (∃ d, owns (c : Thread nD τ) scN fullShare d))
  | n + 1 => iprop(owns (c : Thread nD τ) scS fullShare (Acc.sumAfter (blocks m c) (n + 1)) ∗ owns (c : Thread nD τ) scN fullShare (Acc.cntAfter (blocks m c) (n + 1)))

/-- The proof data of the one pipeline on core `c`: the arrays as found; after the body at point `t` every input's buffer
    still at its block and the two outputs' at the running sums after `t + 1` points; the predictions' array, read by two
    windows, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Acc.sumAfter (blocks m c) (t.val + 1)
    | ⟨5, _⟩ => Acc.cntAfter (blocks m c) (t.val + 1)
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = Acc.sumAfter (blocks m c) (t.val + 1) := by dsimp only [dats]
theorem after5 (c : Dev nD) (t : Fin cfg0.N) : (dats m 0 c).after 5 t = Acc.cntAfter (blocks m c) (t.val + 1) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

end Cert.KernelIdeal.Frm
end
-- ==== Proof.BodyIdeal.lean ====
import proofs.«128166_j24773371363367_1_alg».proof.Proof.Gen.KernelIdeal.Launch
import proofs.«128166_j24773371363367_1_alg».proof.Proof.Gen.KernelIdeal.Skeleton
import proofs.«128166_j24773371363367_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«128166_j24773371363367_1_alg».proof.Proof.LibWholeStore
import proofs.«128166_j24773371363367_1_alg».proof.Proof.LibWholeLoad

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears its running sums exactly when both grid coordinates are zero: the condition of its one branch,
    as the scalar chain the body computes from the coordinates. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- Over the grid it holds at point 0 only. -/
theorem first_iff : ∀ t : Fin cfg0.N, first (grid0.coords t) ↔ t.val = 0 :=
  (by decide +kernel : ∀ t : Fin grid0.N, first (grid0.coords t) ↔ t.val = 0)

/-- The zero offsets of a rank-2 rectangle, however spelt. -/
theorem hz2 : (![0, 0] : Fin 2 → Nat) = fun _ => 0 := funext fun a => by fin_cases a <;> rfl

set_option maxHeartbeats 1000000 in
/-- The body on whole staging buffers, after the first grid point: the tile is added to both running sums. The four inputs are left as found;
    the two output buffers and the two scratch buffers end at the new sums. -/
theorem runLater (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : ¬ first i)
    (x0 x1 : Vec F S1024x256 .f32) (tr : Vec F S1024x1 .i32) (tc : Vec F S1x1024 .i32) (s n : Vec F S1x1 .f32)
    (E : Set ℕ) (K : PUnit → sProp 𝕄) :
        iprop(owns (c : Thread nD τ) arg2 fullShare x0 ∗ owns (c : Thread nD τ) arg3 fullShare x1 ∗ owns (c : Thread nD τ) arg4 fullShare tr ∗ owns (c : Thread nD τ) arg5 fullShare tc
            ∗ (∃ d, owns (c : Thread nD τ) arg6 fullShare d) ∗ (∃ d, owns (c : Thread nD τ) arg7 fullShare d)
            ∗ owns (c : Thread nD τ) arg8 fullShare s ∗ owns (c : Thread nD τ) arg9 fullShare n
            ∗ (iprop(owns (c : Thread nD τ) arg2 fullShare x0 ∗ owns (c : Thread nD τ) arg3 fullShare x1 ∗ owns (c : Thread nD τ) arg4 fullShare tr ∗ owns (c : Thread nD τ) arg5 fullShare tc
                ∗ owns (c : Thread nD τ) arg6 fullShare (k0_pay2 (k0_pay6 x0 x1) (k0_pay7 i) (k0_pay8 (F := F) tr) (k0_pay9 (F := F) tc) s)
                ∗ owns (c : Thread nD τ) arg7 fullShare (k0_pay3 (k0_pay7 i) (k0_pay8 (F := F) tr) (k0_pay9 (F := F) tc) n)
                ∗ owns (c : Thread nD τ) arg8 fullShare (k0_pay2 (k0_pay6 x0 x1) (k0_pay7 i) (k0_pay8 (F := F) tr) (k0_pay9 (F := F) tc) s)
                ∗ owns (c : Thread nD τ) arg9 fullShare (k0_pay3 (k0_pay7 i) (k0_pay8 (F := F) tr) (k0_pay9 (F := F) tc) n)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K := by
    simp only [cc0__kernel_eq_skeleton]; unfold cc0__kernel_skel

    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg8.eq_unread hf8; obtain rfl := harg9.eq_unread hf9
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; swap; · iexact H6
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H7]
    · iexists _; isplitr; swap; · iexact H7
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H8]
    · iexists _; isplitr; swap; · iexact H8
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    · iexists _; isplitr; swap; · iexact H9
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]

set_option maxHeartbeats 1000000 in
/-- The body on whole staging buffers, at the first grid point: both running sums are cleared, then the tile is added. The four inputs are left as found;
    the two output buffers and the two scratch buffers end at the new sums. -/
theorem runFirst (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc : first i)
    (x0 x1 : Vec F S1024x256 .f32) (tr : Vec F S1024x1 .i32) (tc : Vec F S1x1024 .i32)
    (E : Set ℕ) (K : PUnit → sProp 𝕄) :
        iprop(owns (c : Thread nD τ) arg2 fullShare x0 ∗ owns (c : Thread nD τ) arg3 fullShare x1 ∗ owns (c : Thread nD τ) arg4 fullShare tr ∗ owns (c : Thread nD τ) arg5 fullShare tc
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare tr ∗ owns (c : Thread nD τ) arg5 fullShare tc
                ∗ owns (c : Thread nD τ) arg6 fullShare (k0_pay2 (k0_pay6 x0 x1) (k0_pay7 i) (k0_pay8 (F := F) tr) (k0_pay9 (F := F) tc) (k0_pay4 (F := F)))
                ∗ owns (c : Thread nD τ) arg7 fullShare (k0_pay3 (k0_pay7 i) (k0_pay8 (F := F) tr) (k0_pay9 (F := F) tc) (k0_pay5 (F := F)))
                ∗ owns (c : Thread nD τ) arg8 fullShare (k0_pay2 (k0_pay6 x0 x1) (k0_pay7 i) (k0_pay8 (F := F) tr) (k0_pay9 (F := F) tc) (k0_pay4 (F := F)))
                ∗ owns (c : Thread nD τ) arg9 fullShare (k0_pay3 (k0_pay7 i) (k0_pay8 (F := F) tr) (k0_pay9 (F := F) tc) (k0_pay5 (F := F)))) -∗ K ⟨⟩))
          ⊢ wp frame (wpE (defs₀ (F := F)) Variants.none c none) E (cc0__kernel i arg2 harg2 arg3 harg3 arg4 harg4 arg5 harg5 arg6 harg6 arg7 harg7 arg8 harg8 arg9 harg9) K := by
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3

    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; swap; · iexact H6
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H7]
    · iexists _; isplitr; swap; · iexact H7
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    isplitl [H8]
    · iexists _; isplitr; swap; · iexact H8
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]
    · iexists _; isplitr; swap; · iexact H9
      ipureintro
      sl_unfold_words
      simp only [View.readAt_eq_ld, harg2.read_unread, harg3.read_unread, harg4.read_unread, harg5.read_unread, harg8.read_unread, harg9.read_unread,
        View.ld_unit_zero (S := S1024x256) hz2, View.ld_unit_zero (S := S1024x1) hz2, View.ld_unit_zero (S := S1x1024) hz2, View.ld_unit_zero (S := S1x1) hz2,
        View.readCov_whole_head (S := S1x1) _ hz2, View.read_writes_whole_head (S := S1x1) _ _ hz2]

end Cert.KernelIdeal.Frm
end
-- ==== Proof.ObligIdeal.lean ====
import proofs.«128166_j24773371363367_1_alg».proof.Proof.Gen.KernelIdeal.Launch
import proofs.«128166_j24773371363367_1_alg».proof.Proof.Gen.KernelIdeal.Skeleton
import proofs.«128166_j24773371363367_1_alg».proof.Proof.Gen.KernelIdeal.Points
import Idealize.ShloMosaic.Lib.Pipeline.FrameBody
import Idealize.ShloMosaic.Lib.Pipeline.FrameSuffix
import Idealize.ShloMosaic.Lib.Tactic
import proofs.«128166_j24773371363367_1_alg».proof.Proof.DataIdeal
import proofs.«128166_j24773371363367_1_alg».proof.Proof.BodyIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point: from the blocks and the sums so far to the blocks and the sums one point on -/

/-- Window 0's staging buffer in use at point `t`, and that it is a whole buffer. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
/-- Window 1's staging buffer in use at point `t`, and that it is a whole buffer. -/
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
/-- Window 2's staging buffer in use at point `t`, and that it is a whole buffer. -/
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
/-- Window 3's staging buffer in use at point `t`, and that it is a whole buffer. -/
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
/-- Window 4's staging buffer in use at point `t`, and that it is a whole buffer. -/
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- Window 5's staging buffer in use at point `t`, and that it is a whole buffer. -/
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- What the body is handed at point `t`: the invariant, nothing owed, and every window's buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem sum_zero (c : Dev nD) : Acc.sumAfter (blocks m c) 0 = k0_pay4 (F := F) := rfl
theorem cnt_zero (c : Dev nD) : Acc.cntAfter (blocks m c) 0 = k0_pay5 (F := F) := rfl

set_option maxHeartbeats 2000000 in
/-- The body at any point. At the first point the scratch buffers hold anything and the body clears them before adding
    the tile; at a later point they hold the sums the point before left. Either way the inputs' buffers are left at their
    blocks and the outputs' and the scratch buffers at the sums one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = iprop(owns (c : Thread nD τ) scS fullShare (Acc.sumAfter (blocks m c) (t.val + 1)) ∗ owns (c : Thread nD τ) scN fullShare (Acc.cntAfter (blocks m c) (t.val + 1))) from rfl,
    show (dats m 0 c).Φ t.castSucc = PhiS m c t.val from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [sum_step, cnt_step]
  by_cases hz : t.val = 0
  · have hf : first (grid0.coords t) := (first_iff t).mpr hz
    rw [hz, sum_zero, cnt_zero, show PhiS m c 0 = iprop((∃ d, owns (c : Thread nD τ) scS fullShare d) ∗ (∃ d, owns (c : Thread nD τ) scN fullShare d)) from rfl]
    iintro ⟨⟨HS, HN⟩, Ho, ⟨%d0, H0⟩, ⟨%d1, H1⟩, ⟨%d2, H2⟩, ⟨%d3, H3⟩, ⟨%d4, H4⟩, ⟨%d5, H5⟩⟩
    iapply (runFirst c (grid0.coords t) (ms0 t) (hs0 t) (ms1 t) (hs1 t) (ms2 t) (hs2 t) (ms3 t) (hs3 t) (ms4 t) (hs4 t) (ms5 t) (hs5 t) scS (Memref.isWhole_whole _) scN (Memref.isWhole_whole _) hf
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    isplitl [HN]; · iexact HN
    iintro ⟨H0, H1, H2, H3, H4, H5, HS, HN⟩
    isplitl [HS HN]
    · isplitl [HS]; · iexact HS
      iexact HN
    isplitl [Ho]; · iexact Ho
    isplitl [H0]; · iexact H0
    isplitl [H1]; · iexact H1
    isplitl [H2]; · iexact H2
    isplitl [H3]; · iexact H3
    isplitl [H4]; · iexact H4
    iexact H5
  · have hf : ¬ first (grid0.coords t) := fun h => hz ((first_iff t).mp h)
    obtain ⟨n, hn⟩ : ∃ n, t.val = n + 1 := ⟨t.val - 1, by omega⟩
    rw [hn, show PhiS m c (n + 1) = iprop(owns (c : Thread nD τ) scS fullShare (Acc.sumAfter (blocks m c) (n + 1)) ∗ owns (c : Thread nD τ) scN fullShare (Acc.cntAfter (blocks m c) (n + 1))) from rfl]
    iintro ⟨⟨HS, HN⟩, Ho, ⟨%d0, H0⟩, ⟨%d1, H1⟩, ⟨%d2, H2⟩, ⟨%d3, H3⟩, ⟨%d4, H4⟩, ⟨%d5, H5⟩⟩
    iapply (runLater c (grid0.coords t) (ms0 t) (hs0 t) (ms1 t) (hs1 t) (ms2 t) (hs2 t) (ms3 t) (hs3 t) (ms4 t) (hs4 t) (ms5 t) (hs5 t) scS (Memref.isWhole_whole _) scN (Memref.isWhole_whole _) hf
      (iblk m c 0 t) (iblk m c 1 t) (iblk m c 2 t) (iblk m c 3 t) (Acc.sumAfter (blocks m c) (n + 1)) (Acc.cntAfter (blocks m c) (n + 1)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    isplitl [HN]; · iexact HN
    iintro ⟨H0, H1, H2, H3, H4, H5, HS, HN⟩
    isplitl [HS HN]
    · isplitl [HS]; · iexact HS
      iexact HN
    isplitl [Ho]; · iexact Ho
    isplitl [H0]; · iexact H0
    isplitl [H1]; · iexact H1
    isplitl [H2]; · iexact H2
    isplitl [H3]; · iexact H3
    isplitl [H4]; · iexact H4
    iexact H5

/-- The body obligation of the pipeline, at every point. -/
theorem body_obligation (c : Dev nD) : BodyObligation (dats (F := F) m 0 c) (defs₀ (F := F)) Variants.none () Set.univ := fun t => by
  rw [bigSep_W0, bigSep_W0]
  exact sound_body m c t

end Cert.KernelIdeal.Frm
end
-- ==== Proof.LaunchIdeal.lean ====
import proofs.«128166_j24773371363367_1_alg».proof.Proof.Gen.KernelIdeal.Launch
import proofs.«128166_j24773371363367_1_alg».proof.Proof.Gen.KernelIdeal.Skeleton
import proofs.«128166_j24773371363367_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Rules.PointsTo
import proofs.«128166_j24773371363367_1_alg».proof.Proof.ObligIdeal

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays of the pipeline, one by one

The predictions' array is read through two windows (row tiles and column tiles), each holding half of it; the two
label arrays and the two results are held whole. -/

theorem arrays_explicit (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  unfold Dat.arrays
  rw [bigSep_W0]
  simp only [(arr_whole0 0).set_eq_univ, (arr_whole0 2).set_eq_univ, (arr_whole0 3).set_eq_univ,
    (arr_whole0 4).set_eq_univ, (arr_whole0 5).set_eq_univ]
  rfl

theorem arrBufs_explicit (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

/-- At the region's entry the whole arrays become the pipeline's: the predictions' array split in two halves. -/
theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrays_explicit, arrBufs_explicit]
  iintro ⟨B0, B2, B3, B4, B5⟩
  ihave Hs := (pointsTo_share (PosShare.mem_left_op_right fullShare)).1 $$ B0
  icases Hs with ⟨B0l, B0r⟩
  isplitl [B0l]; · iexact B0l
  isplitl [B0r]; · iexact B0r
  isplitl [B2]; · iexact B2
  isplitl [B3]; · iexact B3
  isplitl [B4]; · iexact B4
  iexact B5

/-! ## The invariant at the two ends of the region -/

theorem PhiS_zero (c : Dev nD) :
    (PhiS m c 0 : sProp 𝕄) = Pipeline.scopedRest (Ix := Unit) (Name := ℕ) (U := UR sig nD τ) (Lvl := ℕ) (Val := Elt F) spec0 c := by
  rw [scopedRest0_eq]
  show iprop((∃ d, owns (c : Thread nD τ) scS fullShare d) ∗ (∃ d, owns (c : Thread nD τ) scN fullShare d)) = _
  simp only [scS, scN, owns_whole]
  rfl

theorem PhiS_last (c : Dev nD) : (dats m 0 c).Φ (Fin.last cfg0.N)
    = iprop(owns (c : Thread nD τ) scS fullShare (Acc.sumAfter (blocks m c) 64) ∗ owns (c : Thread nD τ) scN fullShare (Acc.cntAfter (blocks m c) 64)) := rfl

theorem hout (c : Dev nD) : (dats m 0 c).Φ (Fin.last cfg0.N)
    ⊢ iprop(emp ∗ Pipeline.scopedRest (Ix := Unit) (Name := ℕ) (U := UR sig nD τ) (Lvl := ℕ) (Val := Elt F) spec0 c) := by
  rw [PhiS_last, ← PhiS_zero m c]
  show _ ⊢ iprop(emp ∗ (∃ d, owns (c : Thread nD τ) scS fullShare d) ∗ (∃ d, owns (c : Thread nD τ) scN fullShare d))
  iintro ⟨HS, HN⟩
  isplitr; · iempintro
  isplitl [HS]; · iexists _; iexact HS
  iexists _; iexact HN

/-! ## The five host lines after the region -/

/-- The buffers those lines run within: the two results, and the buffers that bypass the region. -/
abbrev tailList : List (Ref sig .tc) := [main_v2_0, main_v2_1, main_arg1, main_v3, main_v4, main_v5, main_cst, main_v6]
abbrev tailS : Finset (DevRef τ sig) := (tailList.map (Proc.devRef (τ := τ) .tc)).toFinset

theorem mem_tailS (r : Ref sig .tc) (h : r ∈ tailList) : Proc.devRef (τ := τ) .tc r ∈ tailS :=
  List.mem_toFinset.mpr (List.mem_map_of_mem h)

/-- What the region leaves: the two results at their final contents, every other buffer as the region found it. -/
def Wexit (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- What the program ends with: the five lines run from there. -/
def Wend (c : Dev nD) : Valuation τ sig (Elt F) := StableHlo.after hostOps1 (Wexit m c)

theorem Wexit_sum (c : Dev nD) : Wexit m c (Proc.devRef .tc main_v2_0) = (dats m 0 c).arrAt 4 cfg0.N := by
  unfold Wexit
  rw [Function.update_of_ne (StableHlo.devRef_ne_of_ne (by decide)), Function.update_self]

theorem Wexit_cnt (c : Dev nD) : Wexit m c (Proc.devRef .tc main_v2_1) = (dats m 0 c).arrAt 5 cfg0.N := by
  unfold Wexit
  rw [Function.update_self]

theorem Wexit_rest (c : Dev nD) (b : Ref sig .tc) (h0 : b ≠ main_v2_0) (h1 : b ≠ main_v2_1) :
    Wexit m c (Proc.devRef .tc b) = V m c b := by
  unfold Wexit
  rw [Function.update_of_ne (StableHlo.devRef_ne_of_ne h1), Function.update_of_ne (StableHlo.devRef_ne_of_ne h0)]

theorem hostOps1_writes : (hostOps1 : List (HloOp τ sig (Elt F))).Forall fun op =>
    op.writes ⊆ (([main_v3, main_v4, main_v5, main_cst, main_v6] : List (Ref sig .tc)).map (Proc.devRef (τ := τ) .tc)).toFinset := by
  simp only [List.Forall, hostOps1, StableHlo.reshape_writes, StableHlo.binary_writes, StableHlo.nullary_writes, Finset.singleton_subset_iff,
    List.mem_toFinset, List.mem_map]
  exact ⟨⟨main_v3, by decide, rfl⟩, ⟨main_v4, by decide, rfl⟩, ⟨main_v5, by decide, rfl⟩, ⟨main_cst, by decide, rfl⟩, ⟨main_v6, by decide, rfl⟩⟩

/-- A buffer none of the five lines writes ends as the region left it. -/
theorem Wend_kept (c : Dev nD) (b : Ref sig .tc) (hb : b ∉ ([main_v3, main_v4, main_v5, main_cst, main_v6] : List (Ref sig .tc))) :
    Wend m c (Proc.devRef .tc b) = Wexit m c (Proc.devRef .tc b) :=
  StableHlo.after_of_writes_sub hostOps1 (Wexit m c) hostOps1_writes hb

theorem held_tail (c : Dev nD) (W : Valuation τ sig (Elt F)) :
    (StableHlo.held (c : Thread nD τ) tailS W : sProp 𝕄)
      = iprop((((c : Thread nD τ).loc main_v2_0) ↦{fullShare} W (Proc.devRef .tc main_v2_0)) ∗ (((c : Thread nD τ).loc main_v2_1) ↦{fullShare} W (Proc.devRef .tc main_v2_1))
          ∗ (((c : Thread nD τ).loc main_arg1) ↦{fullShare} W (Proc.devRef .tc main_arg1)) ∗ (((c : Thread nD τ).loc main_v3) ↦{fullShare} W (Proc.devRef .tc main_v3))
          ∗ (((c : Thread nD τ).loc main_v4) ↦{fullShare} W (Proc.devRef .tc main_v4)) ∗ (((c : Thread nD τ).loc main_v5) ↦{fullShare} W (Proc.devRef .tc main_v5))
          ∗ (((c : Thread nD τ).loc main_cst) ↦{fullShare} W (Proc.devRef .tc main_cst)) ∗ (((c : Thread nD τ).loc main_v6) ↦{fullShare} W (Proc.devRef .tc main_v6))) := by
  unfold StableHlo.held tailS
  rw [bigSep_eq_bigSepL _ (List.Nodup.map (Proc.devRef_injective _) (by decide))]
  rfl

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  have h20 := mem_tailS main_v2_0 (by decide)
  have h21 := mem_tailS main_v2_1 (by decide)
  have h3 := mem_tailS main_v3 (by decide)
  have h4 := mem_tailS main_v4 (by decide)
  have h5 := mem_tailS main_v5 (by decide)
  have hc := mem_tailS main_cst (by decide)
  have h6 := mem_tailS main_v6 (by decide)
  simp only [hostOps1, List.mem_cons, List.mem_nil_iff, or_false] at hop
  rcases hop with rfl | rfl | rfl | rfl | rfl
  · rw [StableHlo.reshape_bufs]; exact Finset.insert_subset h20 (Finset.singleton_subset_iff.mpr h3)
  · rw [StableHlo.reshape_bufs]; exact Finset.insert_subset h21 (Finset.singleton_subset_iff.mpr h4)
  · rw [StableHlo.binary_bufs]; exact Finset.insert_subset h3 (Finset.insert_subset h4 (Finset.singleton_subset_iff.mpr h5))
  · rw [StableHlo.nullary_bufs]; exact Finset.singleton_subset_iff.mpr hc
  · rw [StableHlo.binary_bufs]; exact Finset.insert_subset h5 (Finset.insert_subset hc (Finset.singleton_subset_iff.mpr h6))

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What bypasses the region, at the program's end. -/
def Zend (c : Dev nD) : sProp 𝕄 :=
  Pipeline.unscopedRest (Ix := Unit) (Name := ℕ) (U := UR sig nD τ) (Lvl := ℕ) spec0 c (fun b => Wend m c (Proc.devRef .tc b))

set_option backward.isDefEq.respectTransparency.types false in
/-- The five lines, from the region's exit: they run within the two results and the bypassing buffers, write neither
    result, and hand every array of the pipeline back as the region left it. -/
theorem htail (c : Dev nD) (Q' : PUnit → sProp 𝕄) :
    iprop((iprop((dats m 0 c).arrays ((dats m 0 c).arrAt · cfg0.N) ∗ Zend m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Pipeline.Cfg.toPCfg (Val := Elt F) (cfgs q)) defs₀) (Variants.lift Variants.none) (c : Thread nD τ) none) Set.univ
          (Pipeline.chain [StableHlo.seq hostOps1]) Q' := by
  have hW := held_tail c (Wexit m c)
  have hW' := held_tail c (Wend m c)
  rw [Wexit_sum, Wexit_cnt, Wexit_rest m c main_arg1 (by decide) (by decide), Wexit_rest m c main_v3 (by decide) (by decide),
    Wexit_rest m c main_v4 (by decide) (by decide), Wexit_rest m c main_v5 (by decide) (by decide),
    Wexit_rest m c main_cst (by decide) (by decide), Wexit_rest m c main_v6 (by decide) (by decide)] at hW
  rw [Wend_kept m c main_v2_0 (by decide), Wend_kept m c main_v2_1 (by decide), Wexit_sum, Wexit_cnt] at hW'
  unfold Zend
  rw [arrays_explicit, unscopedRest0_eq, unscopedRest0_eq]
  iintro ⟨Hk, Hb, ⟨A0, A1, A2, A3, A4, A5⟩, ⟨R1, R3, R4, R5, Rc, R6⟩⟩
  ihave Hh := (Entails.of_eq hW.symm) $$ [A4 A5 R1 R3 R4 R5 Rc R6]
  · isplitl [A4]; · iexact A4
    isplitl [A5]; · iexact A5
    isplitl [R1]; · iexact R1
    isplitl [R3]; · iexact R3
    isplitl [R4]; · iexact R4
    isplitl [R5]; · iexact R5
    isplitl [Rc]; · iexact Rc
    iexact R6
  ihave Hw := (Pipeline.wp_seqs_then (fun q => Pipeline.Cfg.toPCfg (Val := Elt F) (cfgs q)) defs₀ Variants.none c tailS [] [hostOps1] tail_sub tail_fresh (Wexit m c)) $$ [Hb Hh]
  · isplitl [Hb] <;> iassumption
  iapply Hw
  iintro ⟨Hb, Hh⟩
  rw [Pipeline.chain_nil, wp_pure]
  imodintro
  ihave Hh' := (Entails.of_eq (show (StableHlo.held (c : Thread nD τ) tailS (StableHlo.after ([hostOps1] : List (List (HloOp τ sig (Elt F)))).flatten (Wexit m c)) : sProp 𝕄) = _ from hW')) $$ Hh
  icases Hh' with ⟨A4, A5, R1, R3, R4, R5, Rc, R6⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R1]; · iexact R1
  isplitl [R3]; · iexact R3
  isplitl [R4]; · iexact R4
  isplitl [R5]; · iexact R5
  isplitl [Rc]; · iexact Rc
  iexact R6

/-! ## The run -/

theorem hostOps0_writes : (hostOps0 : List (HloOp τ sig (Elt F))).Forall fun op =>
    op.writes ⊆ (([main_v0, main_v1] : List (Ref sig .tc)).map (Proc.devRef (τ := τ) .tc)).toFinset := by
  simp only [List.Forall, hostOps0, StableHlo.reshape_writes, Finset.singleton_subset_iff, List.mem_toFinset, List.mem_map]
  exact ⟨⟨main_v0, by decide, rfl⟩, ⟨main_v1, by decide, rfl⟩⟩

/-- The two reshapes before the region write neither argument. -/
theorem V_kept (c : Dev nD) (b : Ref sig .tc) (hb : b ∉ ([main_v0, main_v1] : List (Ref sig .tc))) :
    V m c b = m ((c : Thread nD τ).loc b) :=
  StableHlo.after_of_writes_sub (List.flatten [hostOps0]) (fun b => m (c, b))
    (by simp only [List.flatten_cons, List.flatten_nil, List.append_nil]; exact hostOps0_writes) hb

/-- The predictions' array ends as launched: no window writes it, and no host line does. -/
theorem arg0_final (c : Dev nD) : (dats m 0 c).arrAt 0 cfg0.N = m ((c : Thread nD τ).loc main_arg0) :=
  ((dats (F := F) m 0 c).arrAt_in 0 rfl _).trans ((A_eq m c 0).trans (V_kept m c main_arg0 (by decide)))

/-- The labels' array ends as launched. -/
theorem arg1_final (c : Dev nD) : Wend m c (Proc.devRef .tc main_arg1) = m ((c : Thread nD τ).loc main_arg1) :=
  (Wend_kept m c main_arg1 (by decide)).trans ((Wexit_rest m c main_arg1 (by decide) (by decide)).trans (V_kept m c main_arg1 (by decide)))

/-- What the run ends with: the result at what the five host lines make of the two sums, the arguments as launched. -/
def Qrun : PUnit × MemSt nD τ sig (Elt F) → Prop := fun r => ∀ c : Dev nD,
  r.2.mem ((c : Thread nD τ).loc main_v6) = Wend m c (Proc.devRef .tc main_v6)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of the
    program on the TensorCores terminates, nothing faulting, and every final state has the result at `Wend`'s value and
    both arguments as launched. -/
theorem run_main : θ_run defs (onTc (τ := τ) (main (F := F))) (s₀ m ρ) (Qrun m) :=
  Pipeline.θ_run_region_noSem_pf_tail (fun q => Pipeline.Cfg.toPCfg (Val := Elt F) (cfgs q)) (fun q => (cfgs q).toPCfg_adm) (dats m) () cellOf_inj (0 : Fin 1)
    winFacts₀0 (Pipeline.PreFacts.none _) emb₁ defs₀ Variants.none m ρ main
    (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Zend m)
    (hX := fun c => by
      rw [Pipeline.unscopedRestP_none]
      iintro H; isplitr; · iempintro
      iexact H)
    (hin := fun c => by
      rw [show (dats m 0 c).Φ 0 = PhiS m c 0 from rfl, PhiS_zero]
      iintro ⟨-, -, H⟩; iexact H)
    (hout := hout m)
    (htail := htail m)
    (QY := fun c s => ∀ b ∈ Pipeline.restRefs sig spec0, s.mem ((c : Thread nD τ).loc b) = Wend m c (Proc.devRef .tc b))
    (hY := fun c s' => by
      iintro ⟨-, HU, HSI⟩
      unfold Zend Pipeline.unscopedRest
      imodintro
      iapply (pointsTo_read_all (Pipeline.restRefs sig spec0) (fun b => (c : Thread nD τ).loc b) (fun b => Wend m c (Proc.devRef .tc b)) s')
      isplitl [HU] <;> iassumption)
    (hQ := fun s h c => ⟨(h c).2.2 main_v6 (by decide), ((h c).1 0).trans (arg0_final m c),
      ((h c).2.2 main_arg1 (by decide)).trans (arg1_final m c)⟩)

/-- info: 'Cert.KernelIdeal.Frm.run_main' depends on axioms: [propext, Classical.choice, Quot.sound] -/
#guard_msgs in #print axioms run_main

/-- The frame: the program runs to its end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Frm
end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.TileOps.lean ====
/-
  Sums along one axis of a matrix, read at explicit coordinates.

  A sum over the columns of an `[n, m]` array at row `r` is `Σ_k x(r, k)`; a sum over the rows of an `[n, 1]`
  column is `Σ_k x(k, 0)`. Both are the one-axis reading of an additive reduction with the inserted index
  written by coordinates.
-/
import Idealize.ShloMosaic.PureOps.Ideal.Laws
import Idealize.ShloMosaic.Lib.ValueIdx

noncomputable section

open scoped BigOperators

namespace Cert.PairLoss.Tile

open Idealize.ShloMosaic Idealize.ShloMosaic.ValueIdx

/-- The sum over the second axis of an `[n, m]` array, read at row `r`. -/
theorem sumAxis1_apply {n m : Nat} (src : FVec Ideal ⟨2, ![n, m]⟩ .f32)
    (h : Shape.Reduces ⟨2, ![n, m]⟩ [1] ⟨1, ![n]⟩) (hφ : FKind.Formats .f32)
    (hacc : (0x00000000#32 : BitVec 32) = 0x00000000#32) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- The sum over the first axis of an `[n, 1]` column, read at its one index. -/
theorem sumAxis0_apply {n : Nat} (src : FVec Ideal ⟨2, ![n, 1]⟩ .f32)
    (h : Shape.Reduces ⟨2, ![n, 1]⟩ [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ k : Fin n, src (ix2 k u) := by
  refine (Ideal.multiReduction_add_single src 0x00000000#32 h hφ hacc (ix1 u)).trans ?_
  refine Finset.sum_congr rfl fun k _ => congrArg src (funext fun a => Fin.ext ?_)
  match a with
  | ⟨0, _⟩ => rfl
  | ⟨1, _⟩ => rfl

end Cert.PairLoss.Tile

end
-- ==== Proof.TileDist.lean ====
/-
  The distance tile: what the kernel's body computes from a block of rows and a block of columns, at one entry.

  For blocks `x0`, `x1` of 1024 rows of 256 extended reals, entry `(p, q)` of the tile is
  `√(max((Σ_k x0(p,k)² + Σ_k x1(q,k)²) − 2·Σ_k x0(p,k)·x1(q,k), 0))`: the row norms are sums along the rows kept as a
  column, the second one turned into a row, both spread over the square; the cross term is the product of the first
  block with the transposed second, accumulated from zero.
-/
import proofs.«128166_j24773371363367_1_alg».proof.Proof.Gen.KernelIdeal.Skeleton
import proofs.«128166_j24773371363367_1_alg».proof.Proof.LibKeepdims
import proofs.«128166_j24773371363367_1_alg».proof.Proof.TileOps
import Idealize.ShloMosaic.Lib.ValueLayout

noncomputable section

open scoped BigOperators

namespace Cert.PairLoss.Tile

open Idealize.ShloMosaic Idealize.ShloMosaic.ValueIdx

open Cert.KernelIdeal Cert.KernelIdeal.Gen Cert.LibKeepdims

/-- The first operand's index at output `j` and contraction index `k`: row `j 0` … -/
theorem lhs_row (j : S1024x1024.Idx) (k : dot_S1024x256_S1024x256_S1024x1024_1_1_0_0_n_n.contr.Idx) :
    (dot_S1024x256_S1024x256_S1024x1024_1_1_0_0_n_n.lhsIdx j k 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- … and the second operand's: row `j 1`. -/
theorem rhs_row (j : S1024x1024.Idx) (k : dot_S1024x256_S1024x256_S1024x1024_1_1_0_0_n_n.contr.Idx) :
    (dot_S1024x256_S1024x256_S1024x1024_1_1_0_0_n_n.rhsIdx j k 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The cross term at `(p, q)`: the inner product of row `p` of the first block and row `q` of the second. -/
theorem cross_apply (a b : FVec Ideal S1024x256 .bf16) (p q : Fin 1024) :
    matmul dot_S1024x256_S1024x256_S1024x1024_1_1_0_0_n_n none a b (constant (F := Ideal) S1024x1024 .f32 0x00000000#32) (ix2 p q)
      = ∑ k : Fin 256, a (ix2 p k) * b (ix2 q k) := by
  refine (Ideal.matmul_constant_zero_apply dot_S1024x256_S1024x256_S1024x1024_1_1_0_0_n_n none a b (ix2 p q)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun c => Fin.ext (by
      match c with
      | ⟨0, _⟩ => exact lhs_row _ _
      | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun c => Fin.ext (by
      match c with
      | ⟨0, _⟩ => exact rhs_row _ _
      | ⟨1, _⟩ => exact (dot_S1024x256_S1024x256_S1024x1024_1_1_0_0_n_n.rhsIdx_val_of_single rfl _ _).trans hk)
  rw [el, er]

/-- The squared norms of the first block's rows, kept as a column and spread over the square: at `(p, q)`, row `p`'s. -/
theorem rowNorm_apply (x : FVec Ideal S1024x256 .f32) (h1 : S1024x256.Reduces [1] S1024) (h2 : S1024.ShapeCasts S1024x1)
    (h3 : S1024x1.Broadcasts S1024x1024) (hφ : FKind.Formats .f32) (hacc : (0x00000000#32 : BitVec 32) = 0x00000000#32)
    (p q : Fin 1024) :
    broadcastTo S1024x1024 (shapeCast S1024x1 (multiReduction .add [1] S1024 (mulf x x) 0x00000000#32 h1 hφ hacc) h2) h3 (ix2 p q)
      = ∑ k : Fin 256, x (ix2 p k) * x (ix2 p k) :=
  (broadcastTo_a1_ab_apply _ h3 p q).trans
    ((shapeCast_a_a1_apply _ h2 p (0 : Fin 1)).trans (sumAxis1_apply (mulf x x) h1 hφ hacc p))

/-- The squared norms of the second block's rows, kept as a column, turned into a row and spread over the square: at
    `(p, q)`, row `q`'s. -/
theorem colNorm_apply (x : FVec Ideal S1024x256 .f32) (h1 : S1024x256.Reduces [1] S1024) (h2 : S1024.ShapeCasts S1024x1)
    (h3 : S1024x1.Transposes [1, 0] S1x1024) (h4 : S1x1024.Broadcasts S1024x1024) (hφ : FKind.Formats .f32)
    (hacc : (0x00000000#32 : BitVec 32) = 0x00000000#32) (p q : Fin 1024) :
    broadcastTo S1024x1024
        (transpose S1x1024 [1, 0] (shapeCast S1024x1 (multiReduction .add [1] S1024 (mulf x x) 0x00000000#32 h1 hφ hacc) h2) h3)
        h4 (ix2 p q)
      = ∑ k : Fin 256, x (ix2 q k) * x (ix2 q k) :=
  (broadcastTo_1b_ab_apply _ h4 p q).trans
    ((transpose_ix2_apply _ h3 (0 : Fin 1) q).trans
      ((shapeCast_a_a1_apply _ h2 q (0 : Fin 1)).trans (sumAxis1_apply (mulf x x) h1 hφ hacc q)))

/-- THE DISTANCE TILE at `(p, q)`. -/
theorem pay6_apply (x0 x1 : Vec Ideal S1024x256 .f32) (p q : Fin 1024) :
    k0_pay6 x0 x1 (ix2 p q)
      = Ideal.sqrt (max (((∑ k : Fin 256, x0 (ix2 p k) * x0 (ix2 p k)) + ∑ k : Fin 256, x1 (ix2 q k) * x1 (ix2 q k))
          - Ideal.ofBits .f32 0x40000000#32 * ∑ k : Fin 256, x0 (ix2 p k) * x1 (ix2 q k)) (Ideal.ofBits .f32 0x00000000#32)) := by
  unfold k0_pay6
  refine congrArg Ideal.sqrt (congrArg₂ max (congrArg₂ HSub.hSub (congrArg₂ HAdd.hAdd ?_ ?_) (congrArg₂ HMul.hMul rfl ?_)) rfl)
  · exact rowNorm_apply x0 _ _ _ _ _ p q
  · exact colNorm_apply x1 _ _ _ _ _ _ p q
  · exact cross_apply _ _ p q

end Cert.PairLoss.Tile

end
-- ==== Proof.Spec.lean ====
/-
  The mathematics both programs compute, stated once over the argument arrays and over no program.

  `P` is the matrix of predictions, 8192 rows of 256 extended reals, and `g` the 8192 labels (32-bit words).
  For rows `r`, `c`:  `sqn P r = Σ_k P(r,k)²`,  `gram P r c = Σ_k P(r,k)·P(c,k)`,
  `dist P r c = √(max((sqn r + sqn c) − 2·gram r c, 0))`; a pair counts when `r < c` and the labels agree.
  `total` is the sum of the distances of the counted pairs, `count` their number (as an extended real), and the
  result is `(total / count) · 1`.
-/
import Idealize.ShloMosaic.PureOps.Ideal
import Idealize.ShloMosaic.Lib.ValueIdx

noncomputable section

open scoped BigOperators

namespace Cert.PairLoss

open Idealize.ShloMosaic Idealize.ShloMosaic.ValueIdx

/-- The predictions: 8192 × 256 extended reals. -/
abbrev Mat := (⟨2, ![8192, 256]⟩ : Shape).Idx → EReal
/-- The labels: 8192 words. -/
abbrev Lab := (⟨1, ![8192]⟩ : Shape).Idx → BitVec 32

/-- The squared norm of row `r`. -/
def sqn (P : Mat) (r : Fin 8192) : EReal := ∑ k : Fin 256, P (ix2 r k) * P (ix2 r k)

/-- The inner product of rows `r` and `c`. -/
def gram (P : Mat) (r c : Fin 8192) : EReal := ∑ k : Fin 256, P (ix2 r k) * P (ix2 c k)

/-- The distance of rows `r` and `c`, through the expanded square clamped at zero. -/
def dist (P : Mat) (r c : Fin 8192) : EReal :=
  Ideal.sqrt (max ((sqn P r + sqn P c) - Ideal.ofBits .f32 0x40000000#32 * gram P r c) (Ideal.ofBits .f32 0x00000000#32))

/-- The pair `(r, c)` counts: `r` before `c`, equal labels. -/
def counts (g : Lab) (r c : Fin 8192) : Prop := r.val < c.val ∧ g (ix1 r) = g (ix1 c)

instance (g : Lab) (r c : Fin 8192) : Decidable (counts g r c) := by unfold counts; infer_instance

/-- The distance of a counted pair, zero otherwise. -/
def term (P : Mat) (g : Lab) (r c : Fin 8192) : EReal := if counts g r c then dist P r c else 0

/-- One for a counted pair, zero otherwise. -/
def unit (g : Lab) (r c : Fin 8192) : EReal := if counts g r c then 1 else 0

/-- The sum of the counted pairs' distances. -/
def total (P : Mat) (g : Lab) : EReal := ∑ r : Fin 8192, ∑ c : Fin 8192, term P g r c

/-- The number of counted pairs. -/
def count (g : Lab) : EReal := ∑ r : Fin 8192, ∑ c : Fin 8192, unit g r c

/-- The mean distance of the counted pairs, times the weight one. -/
def loss (P : Mat) (g : Lab) : EReal := Ideal.div (total P g) (count g) * Ideal.ofBits .f32 0x3F800000#32

end Cert.PairLoss

end
-- ==== Proof.TileMask.lean ====
/-
  The mask tile: which entries of a tile are counted.

  Row `p` of tile `i` is row `1024 i + p` of the whole, and likewise for columns. The kernel forms both numbers as
  32-bit words (the tile number times 1024 plus a running index) and compares them as signed integers; all values are
  below 8192, so the words are the numbers and the comparison is the comparison of naturals. The label test compares
  the row tile's label column with the column tile's label row. Together: entry `(p, q)` of tile `(i, j)` carries the
  bit 1 exactly when the pair `(1024 i + p, 1024 j + q)` counts.
-/
import proofs.«128166_j24773371363367_1_alg».proof.Proof.Gen.KernelIdeal.Skeleton
import proofs.«128166_j24773371363367_1_alg».proof.Proof.Spec
import proofs.«128166_j24773371363367_1_alg».proof.Proof.LibKeepdims
import Idealize.ShloMosaic.Lib.ValueLayout

noncomputable section

open scoped BigOperators

namespace Cert.PairLoss.Tile

open Idealize.ShloMosaic Idealize.ShloMosaic.ValueIdx

open Cert.KernelIdeal Cert.KernelIdeal.Gen Cert.LibKeepdims

/-- Row `p` of tile `i` is row `1024 i + p` of the whole. -/
def gidx (i : Fin 8) (p : Fin 1024) : Fin 8192 := ⟨1024 * i.val + p.val, by omega⟩

theorem gidx_val (i : Fin 8) (p : Fin 1024) : (gidx i p).val = 1024 * i.val + p.val := rfl

/-- The word `i · 1024 + p` is the number `1024 i + p`. -/
theorem word_eq (i p : Nat) :
    IntOp.addi (Scalar.muli (BitVec.ofNat 32 i) 1024#32) (BitVec.ofNat 32 (0 * 1024 + p)) = BitVec.ofNat 32 (1024 * i + p) := by
  show BitVec.ofNat 32 i * 1024#32 + BitVec.ofNat 32 (0 * 1024 + p) = _
  apply BitVec.eq_of_toNat_eq
  simp only [BitVec.toNat_add, BitVec.toNat_mul, BitVec.toNat_ofNat]
  omega

/-- Below 8192 the signed comparison of two words is the comparison of the numbers. -/
theorem slt_small (a b : Nat) (ha : a < 8192) (hb : b < 8192) :
    IntOp.cmpi .slt (BitVec.ofNat 32 a) (BitVec.ofNat 32 b) = if a < b then 1#1 else 0#1 := by
  show BitVec.ofBool ((BitVec.ofNat 32 a).slt (BitVec.ofNat 32 b)) = _
  have h : (BitVec.ofNat 32 a).slt (BitVec.ofNat 32 b) = decide (a < b) := by
    rw [BitVec.slt_eq_decide]
    have ea : (BitVec.ofNat 32 a).toInt = a := by
      rw [BitVec.toInt_eq_toNat_of_lt (by rw [BitVec.toNat_ofNat]; omega), BitVec.toNat_ofNat]; omega
    have eb : (BitVec.ofNat 32 b).toInt = b := by
      rw [BitVec.toInt_eq_toNat_of_lt (by rw [BitVec.toNat_ofNat]; omega), BitVec.toNat_ofNat]; omega
    rw [ea, eb]
    simp
  rw [h]
  by_cases hab : a < b <;> simp [hab]

/-- The order bit at `(p, q)` of tile `(i, j)`: 1 exactly when row `1024 i + p` comes before column `1024 j + q`. -/
theorem pay7_apply (c : grid0.Coords) (i j : Fin 8) (hc0 : (c 0).val = i.val) (hc1 : (c 1).val = j.val) (p q : Fin 1024) :
    k0_pay7 c (ix2 p q) = if (gidx i p).val < (gidx j q).val then 1#1 else 0#1 := by
  unfold k0_pay7
  show IntOp.cmpi .slt
      (IntOp.addi (Scalar.muli (BitVec.ofNat 32 (c 0).val) 1024#32) (BitVec.ofNat 32 (0 * 1024 + p.val)))
      (IntOp.addi (Scalar.muli (BitVec.ofNat 32 (c 1).val) 1024#32) (BitVec.ofNat 32 (0 * 1024 + q.val))) = _
  rw [hc0, hc1, word_eq, word_eq]
  exact slt_small _ _ (gidx i p).isLt (gidx j q).isLt

/-- The mask at `(p, q)`: the given bit and the equality bit of the row tile's label `p` and the column tile's label `q`. -/
theorem pay1_apply (m : IVec S1024x1024 1) (tr : Vec Ideal S1024x1 .i32) (tc : Vec Ideal S1x1024 .i32) (p q : Fin 1024) :
    k0_pay1 m (k0_pay8 (F := Ideal) tr) (k0_pay9 (F := Ideal) tc) (ix2 p q)
      = IntOp.andi (m (ix2 p q)) (IntOp.cmpi .eq (tr (ix2 p (0 : Fin 1))) (tc (ix2 (0 : Fin 1) q))) := by
  unfold k0_pay1 k0_pay8 k0_pay9
  refine congrArg₂ IntOp.andi rfl (congrArg₂ (IntOp.cmpi .eq) ?_ ?_)
  · exact (broadcastTo_a1_ab_apply _ _ p q).trans (congrFun (shapeCast_self tr _) _)
  · exact (broadcastTo_1b_ab_apply _ _ p q).trans (congrFun (shapeCast_self tc _) _)

/-- A decided bit and an equality bit: 1 exactly when both hold. -/
theorem bit_and (a : Prop) [Decidable a] (x y : BitVec 32) :
    IntOp.andi (if a then 1#1 else 0#1) (IntOp.cmpi .eq x y) = if a ∧ x = y then 1#1 else 0#1 := by
  show (if a then 1#1 else 0#1) &&& BitVec.ofBool (x == y) = _
  by_cases ha : a <;> by_cases hxy : x = y
  · simp [ha, hxy]
  · have hb : (x == y) = false := by simpa using hxy
    rw [hb, if_pos ha, if_neg (fun h => hxy h.2)]
    decide
  · simp [ha, hxy]
  · simp [ha, hxy]

/-- THE MASK TILE at `(p, q)`: 1 exactly when the pair `(1024 i + p, 1024 j + q)` counts. -/
theorem mask_apply (g : Lab) (i j : Fin 8) (c : grid0.Coords) (hc0 : (c 0).val = i.val) (hc1 : (c 1).val = j.val)
    (tr : Vec Ideal S1024x1 .i32) (tc : Vec Ideal S1x1024 .i32)
    (htr : ∀ p : Fin 1024, tr (ix2 p (0 : Fin 1)) = g (ix1 (gidx i p)))
    (htc : ∀ q : Fin 1024, tc (ix2 (0 : Fin 1) q) = g (ix1 (gidx j q))) (p q : Fin 1024) :
    k0_pay1 (k0_pay7 c) (k0_pay8 (F := Ideal) tr) (k0_pay9 (F := Ideal) tc) (ix2 p q)
      = if counts g (gidx i p) (gidx j q) then 1#1 else 0#1 := by
  rw [pay1_apply, pay7_apply c i j hc0 hc1, htr, htc, bit_and]
  by_cases h : counts g (gidx i p) (gidx j q)
  · exact (if_pos h).trans (if_pos h).symm
  · exact (if_neg h).trans (if_neg h).symm

end Cert.PairLoss.Tile

end
-- ==== Proof.TileSum.lean ====
/-
  One tile's contribution to the two running sums.

  The body keeps a distance where the mask bit is 1 and zero elsewhere, sums the kept values along the rows, then sums
  the row sums, and adds the result to the running sum; for the count it turns the mask bit into the number 1 or 0 and
  sums in the same way. With the distance tile and the mask tile read at an entry, tile `(i, j)` adds
  `Σ_p Σ_q term(1024 i + p, 1024 j + q)` to the first sum and `Σ_p Σ_q unit(1024 i + p, 1024 j + q)` to the second.
-/
import proofs.«128166_j24773371363367_1_alg».proof.Proof.TileDist
import proofs.«128166_j24773371363367_1_alg».proof.Proof.TileMask

noncomputable section

open scoped BigOperators

namespace Cert.PairLoss.Tile

open Idealize.ShloMosaic Idealize.ShloMosaic.ValueIdx

open Cert.KernelIdeal Cert.KernelIdeal.Gen Cert.LibKeepdims

/-- The one index of a `[1, 1]` array. -/
theorem idx11 (a : S1x1.Idx) : a = ix2 (0 : Fin 1) (0 : Fin 1) := by
  funext d
  match d with
  | ⟨0, _⟩ => exact Fin.ext (Nat.lt_one_iff.mp (a _).isLt)
  | ⟨1, _⟩ => exact Fin.ext (Nat.lt_one_iff.mp (a _).isLt)

/-- Both sums start from zero. -/
theorem pay4_eq : k0_pay4 (F := Ideal) = fun _ => (0 : EReal) := by
  unfold k0_pay4
  refine (shapeCast_self _ _).trans (funext fun _ => ?_)
  exact Ideal.ofBits_zero_f32

theorem pay5_eq : k0_pay5 (F := Ideal) = fun _ => (0 : EReal) := by
  unfold k0_pay5
  refine (shapeCast_self _ _).trans (funext fun _ => ?_)
  exact Ideal.ofBits_zero_f32

/-- A sum along the rows and then down the column of row sums, at the one index of the result. -/
theorem sum2_apply (v : FVec Ideal S1024x1024 .f32) (h1 : S1024x1024.Reduces [1] S1024) (h2 : S1024.ShapeCasts S1024x1)
    (h3 : S1024x1.Reduces [0] S1) (h4 : S1.ShapeCasts S1x1) (hφ : FKind.Formats .f32)
    (hacc : (0x00000000#32 : BitVec 32) = 0x00000000#32) :
    shapeCast S1x1 (multiReduction .add [0] S1
        (shapeCast S1024x1 (multiReduction .add [1] S1024 v 0x00000000#32 h1 hφ hacc) h2) 0x00000000#32 h3 hφ hacc) h4
        (ix2 (0 : Fin 1) (0 : Fin 1))
      = ∑ p : Fin 1024, ∑ q : Fin 1024, v (ix2 p q) := by
  refine (shapeCast_a_a1_apply _ h4 (0 : Fin 1) (0 : Fin 1)).trans ?_
  refine (sumAxis0_apply _ h3 hφ hacc (0 : Fin 1)).trans ?_
  refine Finset.sum_congr rfl fun p _ => ?_
  exact (shapeCast_a_a1_apply _ h2 p (0 : Fin 1)).trans (sumAxis1_apply v h1 hφ hacc p)

/-- The distance sum after a tile: the sum before plus the distances the mask keeps. -/
theorem pay2_apply (d : FVec Ideal S1024x1024 .f32) (m : IVec S1024x1024 1) (a : IVec S1024x1 32) (b : IVec S1x1024 32)
    (s : Vec Ideal S1x1 .f32) :
    k0_pay2 d m a b s = fun _ => s (ix2 (0 : Fin 1) (0 : Fin 1))
      + ∑ p : Fin 1024, ∑ q : Fin 1024, if k0_pay1 m a b (ix2 p q) = 1#1 then d (ix2 p q) else (0 : EReal) := by
  funext x
  rw [idx11 x]
  unfold k0_pay2
  refine (congrFun (shapeCast_self _ _) _).trans ?_
  refine congrArg₂ HAdd.hAdd rfl ?_
  refine (sum2_apply _ _ _ _ _ _ _).trans ?_
  refine Finset.sum_congr rfl fun p _ => Finset.sum_congr rfl fun q _ => ?_
  show (if k0_pay1 m a b (ix2 p q) = 1#1 then d (ix2 p q) else Ideal.ofBits .f32 0x00000000#32) = _
  rw [Ideal.ofBits_zero_f32]

/-- A mask bit widened to a word and read as a signed number: one or zero. -/
theorem sitofp_bit (w : BitVec 1) :
    FloatOps.sitofp (F := Ideal) .f32 (w.setWidth 32) = if w = 1#1 then (1 : EReal) else 0 := by
  show (((w.setWidth 32).toInt : ℝ) : EReal) = _
  rcases BitVec.eq_zero_or_eq_one w with h | h <;> subst h
  · have e : ((0#1 : BitVec 1).setWidth 32).toInt = 0 := by decide
    rw [e, if_neg (by decide)]; simp
  · have e : ((1#1 : BitVec 1).setWidth 32).toInt = 1 := by decide
    rw [e, if_pos rfl]; simp

/-- The pair count after a tile: the count before plus the number of entries the mask keeps. -/
theorem pay3_apply (m : IVec S1024x1024 1) (a : IVec S1024x1 32) (b : IVec S1x1024 32) (s : Vec Ideal S1x1 .f32) :
    k0_pay3 m a b s = fun _ => s (ix2 (0 : Fin 1) (0 : Fin 1))
      + ∑ p : Fin 1024, ∑ q : Fin 1024, if k0_pay1 m a b (ix2 p q) = 1#1 then (1 : EReal) else 0 := by
  funext x
  rw [idx11 x]
  unfold k0_pay3
  refine (congrFun (shapeCast_self _ _) _).trans ?_
  refine congrArg₂ HAdd.hAdd rfl ?_
  refine (sum2_apply _ _ _ _ _ _ _).trans ?_
  refine Finset.sum_congr rfl fun p _ => Finset.sum_congr rfl fun q _ => ?_
  exact sitofp_bit _

/-- The distance tile over blocks of the predictions: the distance of rows `1024 i + p` and `1024 j + q`. -/
theorem dist_tile (P : Mat) (i j : Fin 8) (x0 x1 : Vec Ideal S1024x256 .f32)
    (hx0 : ∀ (p : Fin 1024) (k : Fin 256), x0 (ix2 p k) = P (ix2 (gidx i p) k))
    (hx1 : ∀ (q : Fin 1024) (k : Fin 256), x1 (ix2 q k) = P (ix2 (gidx j q) k)) (p q : Fin 1024) :
    k0_pay6 x0 x1 (ix2 p q) = dist P (gidx i p) (gidx j q) := by
  rw [pay6_apply]
  simp only [hx0, hx1]
  rfl

/-- ONE TILE, the distance sum. -/
theorem tile_sum (P : Mat) (g : Lab) (i j : Fin 8) (c : grid0.Coords)
    (hc0 : (c 0).val = i.val) (hc1 : (c 1).val = j.val)
    (x0 x1 : Vec Ideal S1024x256 .f32) (tr : Vec Ideal S1024x1 .i32) (tc : Vec Ideal S1x1024 .i32)
    (hx0 : ∀ (p : Fin 1024) (k : Fin 256), x0 (ix2 p k) = P (ix2 (gidx i p) k))
    (hx1 : ∀ (q : Fin 1024) (k : Fin 256), x1 (ix2 q k) = P (ix2 (gidx j q) k))
    (htr : ∀ p : Fin 1024, tr (ix2 p (0 : Fin 1)) = g (ix1 (gidx i p)))
    (htc : ∀ q : Fin 1024, tc (ix2 (0 : Fin 1) q) = g (ix1 (gidx j q)))
    (s : Vec Ideal S1x1 .f32) :
    k0_pay2 (k0_pay6 x0 x1) (k0_pay7 c) (k0_pay8 (F := Ideal) tr) (k0_pay9 (F := Ideal) tc) s
      = fun _ => s (ix2 (0 : Fin 1) (0 : Fin 1)) + ∑ p : Fin 1024, ∑ q : Fin 1024, term P g (gidx i p) (gidx j q) := by
  rw [pay2_apply]
  funext _
  refine congrArg₂ HAdd.hAdd rfl (Finset.sum_congr rfl fun p _ => Finset.sum_congr rfl fun q _ => ?_)
  rw [mask_apply g i j c hc0 hc1 tr tc htr htc p q, dist_tile P i j x0 x1 hx0 hx1 p q]
  unfold term
  by_cases h : counts g (gidx i p) (gidx j q)
  · rw [if_pos h, if_pos h, if_pos rfl]
  · rw [if_neg h, if_neg h, if_neg (by decide)]

/-- ONE TILE, the pair count. -/
theorem tile_cnt (g : Lab) (i j : Fin 8) (c : grid0.Coords)
    (hc0 : (c 0).val = i.val) (hc1 : (c 1).val = j.val)
    (tr : Vec Ideal S1024x1 .i32) (tc : Vec Ideal S1x1024 .i32)
    (htr : ∀ p : Fin 1024, tr (ix2 p (0 : Fin 1)) = g (ix1 (gidx i p)))
    (htc : ∀ q : Fin 1024, tc (ix2 (0 : Fin 1) q) = g (ix1 (gidx j q)))
    (s : Vec Ideal S1x1 .f32) :
    k0_pay3 (k0_pay7 c) (k0_pay8 (F := Ideal) tr) (k0_pay9 (F := Ideal) tc) s
      = fun _ => s (ix2 (0 : Fin 1) (0 : Fin 1)) + ∑ p : Fin 1024, ∑ q : Fin 1024, unit g (gidx i p) (gidx j q) := by
  rw [pay3_apply]
  funext _
  refine congrArg₂ HAdd.hAdd rfl (Finset.sum_congr rfl fun p _ => Finset.sum_congr rfl fun q _ => ?_)
  rw [mask_apply g i j c hc0 hc1 tr tc htr htc p q]
  unfold unit
  by_cases h : counts g (gidx i p) (gidx j q)
  · rw [if_pos h, if_pos h, if_pos rfl]
  · rw [if_neg h, if_neg h, if_neg (by decide)]

end Cert.PairLoss.Tile

end
-- ==== Proof.TileAll.lean ====
/-
  All 64 tiles: the two running sums after the whole grid are the sums over all pairs.

  The grid is walked row-major, point `t` being tile `(t / 8, t % 8)`. By induction the sums after `n` points are the
  sums of the first `n` tiles' contributions; the 64 tiles of 1024 × 1024 entries partition the 8192 × 8192 pairs
  (`r = 1024 i + p`, `c = 1024 j + q`), so after 64 points the sums are the totals over all pairs.
-/
import proofs.«128166_j24773371363367_1_alg».proof.Proof.TileSum
import proofs.«128166_j24773371363367_1_alg».proof.Proof.AccIdeal

noncomputable section

open scoped BigOperators

namespace Cert.PairLoss.Tile

open Idealize.ShloMosaic Idealize.ShloMosaic.ValueIdx

open Cert.KernelIdeal Cert.KernelIdeal.Gen Cert.KernelIdeal.Acc

/-- A sum over `a · b` indices is the sum over `a` blocks of `b`. -/
theorem sum_blocks {M : Type*} [AddCommMonoid M] {a b N : Nat} (f : Fin N → M) (idx : Fin a → Fin b → Fin N)
    (hN : a * b = N) (hidx : ∀ i p, (idx i p).val = b * i.val + p.val) :
    ∑ r : Fin N, f r = ∑ i : Fin a, ∑ p : Fin b, f (idx i p) := by
  subst hN
  rw [← Equiv.sum_comp finProdFinEquiv f, Fintype.sum_prod_type]
  refine Finset.sum_congr rfl fun i _ => Finset.sum_congr rfl fun p _ => congrArg f (Fin.ext ?_)
  rw [hidx]
  exact Nat.add_comm _ _

/-- A sum over all pairs is the sum over the tiles of the sums over each tile's entries. -/
theorem grid_sum (f : Fin 8192 → Fin 8192 → EReal) :
    ∑ r : Fin 8192, ∑ c : Fin 8192, f r c
      = ∑ i : Fin 8, ∑ j : Fin 8, ∑ p : Fin 1024, ∑ q : Fin 1024, f (gidx i p) (gidx j q) := by
  rw [sum_blocks (fun r => ∑ c : Fin 8192, f r c) gidx (by norm_num) gidx_val]
  refine Finset.sum_congr rfl fun i _ => ?_
  calc ∑ p : Fin 1024, ∑ c : Fin 8192, f (gidx i p) c
      = ∑ p : Fin 1024, ∑ j : Fin 8, ∑ q : Fin 1024, f (gidx i p) (gidx j q) :=
        Finset.sum_congr rfl fun p _ => sum_blocks (fun c => f (gidx i p) c) gidx (by norm_num) gidx_val
    _ = ∑ j : Fin 8, ∑ p : Fin 1024, ∑ q : Fin 1024, f (gidx i p) (gidx j q) := Finset.sum_comm

/-- The row tile and the column tile of grid point `t`. -/
def ti (t : Nat) : Fin 8 := ⟨t / 8 % 8, Nat.mod_lt _ (by decide)⟩
def tj (t : Nat) : Fin 8 := ⟨t % 8, Nat.mod_lt _ (by decide)⟩

/-- A sum over the 64 grid points in row-major order is the sum over the tiles. -/
theorem range_tiles (F : Fin 8 → Fin 8 → EReal) :
    ∑ t ∈ Finset.range 64, F (ti t) (tj t) = ∑ i : Fin 8, ∑ j : Fin 8, F i j := by
  rw [Finset.sum_range (fun t => F (ti t) (tj t)),
    sum_blocks (a := 8) (b := 8) (fun t : Fin 64 => F (ti t.val) (tj t.val))
      (fun (i j : Fin 8) => (⟨8 * i.val + j.val, by omega⟩ : Fin 64))
      (by norm_num) (fun _ _ => rfl)]
  refine Finset.sum_congr rfl fun i _ => Finset.sum_congr rfl fun j _ => ?_
  have e1 : ti (8 * i.val + j.val) = i := Fin.ext (by show (8 * i.val + j.val) / 8 % 8 = i.val; omega)
  have e2 : tj (8 * i.val + j.val) = j := Fin.ext (by show (8 * i.val + j.val) % 8 = j.val; omega)
  show F (ti (8 * i.val + j.val)) (tj (8 * i.val + j.val)) = F i j
  rw [e1, e2]

/-- Tile `(i, j)`'s share of the distance sum and of the pair count. -/
def tileTotal (P : Mat) (g : Lab) (i j : Fin 8) : EReal :=
  ∑ p : Fin 1024, ∑ q : Fin 1024, term P g (gidx i p) (gidx j q)
def tileCount (g : Lab) (i j : Fin 8) : EReal :=
  ∑ p : Fin 1024, ∑ q : Fin 1024, unit g (gidx i p) (gidx j q)

section
variable (P : Mat) (g : Lab) (B : Blocks Ideal)
  (hrows : ∀ n (hn : n < 64) (p : Fin 1024) (k : Fin 256),
    B.rows n (ix2 p k) = P (ix2 (⟨1024 * (n / 8) + p.val, by omega⟩ : Fin 8192) k))
  (hcols : ∀ n (hn : n < 64) (q : Fin 1024) (k : Fin 256),
    B.cols n (ix2 q k) = P (ix2 (⟨1024 * (n % 8) + q.val, by omega⟩ : Fin 8192) k))
  (hrl : ∀ n (hn : n < 64) (p : Fin 1024),
    B.rowLab n (ix2 p (0 : Fin 1)) = g (ix1 (⟨1024 * (n / 8) + p.val, by omega⟩ : Fin 8192)))
  (hcl : ∀ n (hn : n < 64) (q : Fin 1024),
    B.colLab n (ix2 (0 : Fin 1) q) = g (ix1 (⟨1024 * (n % 8) + q.val, by omega⟩ : Fin 8192)))

/-- Below 64, the row tile of point `n` is `n / 8`. -/
theorem row_tile (n : Nat) (hn : n < 64) (p : Fin 1024) :
    (⟨1024 * (n / 8) + p.val, by omega⟩ : Fin 8192) = gidx (ti n) p :=
  Fin.ext (by show 1024 * (n / 8) + p.val = 1024 * (n / 8 % 8) + p.val; omega)

include hrows hcols hrl hcl in
/-- The distance sum after `n` points is the sum of the first `n` tiles' shares. -/
theorem sumAfter_range (n : Nat) (hn : n ≤ 64) :
    sumAfter B n = fun _ => ∑ t ∈ Finset.range n, tileTotal P g (ti t) (tj t) := by
  induction n with
  | zero =>
    rw [Finset.range_zero, Finset.sum_empty]
    exact pay4_eq
  | succ n ih =>
    have hn' : n < 64 := hn
    rw [sumAfter_succ, ih (Nat.le_of_lt hn'), Finset.sum_range_succ]
    exact tile_sum P g (ti n) (tj n) (grid0.coords (pt n))
      ((coords_pt (pt n)).1.trans (by show n % 64 / 8 = n / 8 % 8; omega))
      ((coords_pt (pt n)).2.trans (by show n % 64 % 8 = n % 8; omega))
      (B.rows n) (B.cols n) (B.rowLab n) (B.colLab n)
      (fun p k => (hrows n hn' p k).trans (congrArg (fun r => P (ix2 r k)) (row_tile n hn' p)))
      (fun q k => hcols n hn' q k)
      (fun p => (hrl n hn' p).trans (congrArg (fun r => g (ix1 r)) (row_tile n hn' p)))
      (fun q => hcl n hn' q) _

include hrl hcl in
/-- The pair count after `n` points is the sum of the first `n` tiles' shares. -/
theorem cntAfter_range (n : Nat) (hn : n ≤ 64) :
    cntAfter B n = fun _ => ∑ t ∈ Finset.range n, tileCount g (ti t) (tj t) := by
  induction n with
  | zero =>
    rw [Finset.range_zero, Finset.sum_empty]
    exact pay5_eq
  | succ n ih =>
    have hn' : n < 64 := hn
    rw [cntAfter_succ, ih (Nat.le_of_lt hn'), Finset.sum_range_succ]
    exact tile_cnt g (ti n) (tj n) (grid0.coords (pt n))
      ((coords_pt (pt n)).1.trans (by show n % 64 / 8 = n / 8 % 8; omega))
      ((coords_pt (pt n)).2.trans (by show n % 64 % 8 = n % 8; omega))
      (B.rowLab n) (B.colLab n)
      (fun p => (hrl n hn' p).trans (congrArg (fun r => g (ix1 r)) (row_tile n hn' p)))
      (fun q => hcl n hn' q) _

include hrows hcols hrl hcl in
/-- ALL TILES, the distance sum: after the 64 points it is the total over all pairs. -/
theorem sumAfter_all : sumAfter B 64 = fun _ => total P g := by
  rw [sumAfter_range P g B hrows hcols hrl hcl 64 le_rfl, range_tiles (tileTotal P g)]
  unfold total tileTotal
  rw [grid_sum (term P g)]

include hrl hcl in
/-- ALL TILES, the pair count: after the 64 points it is the number of counted pairs. -/
theorem cntAfter_all : cntAfter B 64 = fun _ => count g := by
  rw [cntAfter_range g B hrl hcl 64 le_rfl, range_tiles (tileCount g)]
  unfold count tileCount
  rw [grid_sum (unit g)]

end

end Cert.PairLoss.Tile

end
-- ==== Proof.BlkRead.lean ====
/-
  What the kernel region finds in its arrays, and the blocks its grid points are handed, at explicit coordinates.

  Before the region the host writes only the two reshaped copies of the labels, so the two argument arrays are as
  launched; the column copy at `(r, 0)` and the row copy at `(0, r)` are both the label of `r` (a reshape keeps the
  row-major position). Point `t` of the row-major 8 × 8 grid is tile `(t / 8, t % 8)`: its row block of the
  predictions starts at row `1024 · (t / 8)`, its column block at row `1024 · (t % 8)`, and the two label blocks
  start at the same offsets of the column copy and of the row copy. An element of a block sits in the array at the
  block index times the block size plus its own coordinate.
-/
import proofs.«128166_j24773371363367_1_alg».proof.Proof.DataIdeal
import proofs.«128166_j24773371363367_1_alg».proof.Proof.LibKeepdims
import Idealize.ShloMosaic.Lib.ValueLayout

noncomputable section

namespace Cert.PairLoss.Blk

open Cert.KernelIdeal Cert.KernelIdeal.Gen Cert.KernelIdeal.Frm
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The arrays as the region finds them -/

/-- The two host lines before the region write only the two reshaped copies. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [hostOps0, List.mem_cons, List.mem_nil_iff, or_false] at hop
  rcases hop with rfl | rfl <;>
    simp only [StableHlo.reshape_writes, Finset.mem_singleton] <;>
    exact StableHlo.devRef_ne_of_ne ‹_›

/-- The predictions reach the region as launched. -/
theorem V_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  exact StableHlo.after_of_forall_not_mem (b := Proc.devRef .tc main_arg0) hostOps0 _ (not_written0 main_arg0 (by decide))

/-- The labels reach the region as launched. -/
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil]
  exact StableHlo.after_of_forall_not_mem (b := Proc.devRef .tc main_arg1) hostOps0 _ (not_written0 main_arg1 (by decide))

/-- The column copy of the labels is the labels reshaped. -/
theorem V_v0 (c : Dev nD) :
    (V m c main_v0 : S8192x1.Idx → Elt F .i32)
      = shapeCast S8192x1 (m ((c : Thread nD τ).loc main_arg1) : S8192.Idx → Elt F .i32) shapeCasts_S8192_S8192x1 := by
  show StableHlo.after (List.flatten [hostOps0]) (fun b => m (c, b)) (Proc.devRef .tc main_v0) = _
  simp only [hostOps0, List.flatten_cons, List.flatten_nil, List.append_nil]
  after_results
  rfl

/-- The row copy of the labels is the labels reshaped. -/
theorem V_v1 (c : Dev nD) :
    (V m c main_v1 : S1x8192.Idx → Elt F .i32)
      = shapeCast S1x8192 (m ((c : Thread nD τ).loc main_arg1) : S8192.Idx → Elt F .i32) shapeCasts_S8192_S1x8192 := by
  show StableHlo.after (List.flatten [hostOps0]) (fun b => m (c, b)) (Proc.devRef .tc main_v1) = _
  simp only [hostOps0, List.flatten_cons, List.flatten_nil, List.append_nil]
  after_results
  rfl

/-- The column copy at `(r, 0)` is the label of `r`. -/
theorem V_v0_apply (c : Dev nD) (r : Fin 8192) (u : Fin 1) :
    (V m c main_v0 : S8192x1.Idx → Elt F .i32) (ix2 r u) = m ((c : Thread nD τ).loc main_arg1) (ix1 r) := by
  rw [V_v0]
  exact Cert.LibKeepdims.shapeCast_a_a1_apply _ _ r u

/-- The row copy at `(0, r)` is the label of `r`. -/
theorem V_v1_apply (c : Dev nD) (u : Fin 1) (r : Fin 8192) :
    (V m c main_v1 : S1x8192.Idx → Elt F .i32) (ix2 u r) = m ((c : Thread nD τ).loc main_arg1) (ix1 r) := by
  rw [V_v1]
  exact shapeCast_a_1a_apply _ _ u r

/-! ## The blocks at explicit coordinates -/

/-- The printed index maps over the grid: the predictions' two windows and the two label windows sit at tile
    `(t / 8, t % 8)` of the row-major grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- A point's number is below 64. -/
theorem pt_lt (t : Fin cfg0.N) : t.val < 64 := lt_of_lt_of_eq t.isLt (show cfg0.N = 64 from N_0)

/-- The row block of the predictions at point `t`. -/
theorem iblk0_apply (c : Dev nD) (t : Fin cfg0.N) (p : Fin 1024) (k : Fin 256) :
    (iblk m c 0 t : S1024x256.Idx → Elt F .f32) (ix2 p k)
      = (V m c main_arg0 : S8192x256.Idx → Elt F .f32)
          (ix2 (⟨1024 * (t.val / 8) + p.val, by have := pt_lt t; omega⟩ : Fin 8192) k) := by
  obtain ⟨e0, e1, -⟩ := idx_facts t
  show V m c main_arg0 (((cfg0.win 0).blk t).view.emb (ix2 p k)) = _
  refine congrArg _ (funext fun a => Fin.ext ?_)
  match a with
  | ⟨0, _⟩ => show win0_0.index t (0 : Fin 2) * 1024 + 1 * p.val = 1024 * (t.val / 8) + p.val; omega
  | ⟨1, _⟩ => show win0_0.index t (1 : Fin 2) * 256 + 1 * k.val = k.val; omega

/-- The column block of the predictions at point `t`. -/
theorem iblk1_apply (c : Dev nD) (t : Fin cfg0.N) (q : Fin 1024) (k : Fin 256) :
    (iblk m c 1 t : S1024x256.Idx → Elt F .f32) (ix2 q k)
      = (V m c main_arg0 : S8192x256.Idx → Elt F .f32)
          (ix2 (⟨1024 * (t.val % 8) + q.val, by omega⟩ : Fin 8192) k) := by
  obtain ⟨-, -, e0, e1, -⟩ := idx_facts t
  show V m c main_arg0 (((cfg0.win 1).blk t).view.emb (ix2 q k)) = _
  refine congrArg _ (funext fun a => Fin.ext ?_)
  match a with
  | ⟨0, _⟩ => show win0_1.index t (0 : Fin 2) * 1024 + 1 * q.val = 1024 * (t.val % 8) + q.val; omega
  | ⟨1, _⟩ => show win0_1.index t (1 : Fin 2) * 256 + 1 * k.val = k.val; omega

/-- The row tile's labels at point `t`: a block of the column copy. -/
theorem iblk2_apply (c : Dev nD) (t : Fin cfg0.N) (p : Fin 1024) (u : Fin 1) :
    (iblk m c 2 t : S1024x1.Idx → Elt F .i32) (ix2 p u)
      = (V m c main_v0 : S8192x1.Idx → Elt F .i32)
          (ix2 (⟨1024 * (t.val / 8) + p.val, by have := pt_lt t; omega⟩ : Fin 8192) (0 : Fin 1)) := by
  obtain ⟨-, -, -, -, e0, e1, -⟩ := idx_facts t
  show V m c main_v0 (((cfg0.win 2).blk t).view.emb (ix2 p u)) = _
  refine congrArg _ (funext fun a => Fin.ext ?_)
  match a with
  | ⟨0, _⟩ => show win0_2.index t (0 : Fin 2) * 1024 + 1 * p.val = 1024 * (t.val / 8) + p.val; omega
  | ⟨1, _⟩ => show win0_2.index t (1 : Fin 2) * 1 + 1 * u.val = 0; omega

/-- The column tile's labels at point `t`: a block of the row copy. -/
theorem iblk3_apply (c : Dev nD) (t : Fin cfg0.N) (u : Fin 1) (q : Fin 1024) :
    (iblk m c 3 t : S1x1024.Idx → Elt F .i32) (ix2 u q)
      = (V m c main_v1 : S1x8192.Idx → Elt F .i32)
          (ix2 (0 : Fin 1) (⟨1024 * (t.val % 8) + q.val, by omega⟩ : Fin 8192)) := by
  obtain ⟨-, -, -, -, -, -, e0, e1⟩ := idx_facts t
  show V m c main_v1 (((cfg0.win 3).blk t).view.emb (ix2 u q)) = _
  refine congrArg _ (funext fun a => Fin.ext ?_)
  match a with
  | ⟨0, _⟩ => show win0_3.index t (0 : Fin 2) * 1 + 1 * u.val = 0; omega
  | ⟨1, _⟩ => show win0_3.index t (1 : Fin 2) * 1024 + 1 * q.val = 1024 * (t.val % 8) + q.val; omega

end Cert.PairLoss.Blk

end
-- ==== Proof.BlkHyps.lean ====
/-
  The blocks the 64 points are handed are the tiles of the two argument arrays.

  At the extended reals, with `P` the predictions and `g` the labels as launched: point `n` (below 64) is handed rows
  `1024 · (n / 8) …` of `P` as its row block and rows `1024 · (n % 8) …` as its column block, and the labels of the same
  rows, read off the column copy and the row copy of `g`.
-/
import proofs.«128166_j24773371363367_1_alg».proof.Proof.BlkRead

noncomputable section

namespace Cert.PairLoss.Blk

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

/-- Below 64 a number is its own grid point. -/
theorem pt_val_of_lt (n : Nat) (hn : n < 64) : (Acc.pt n).val = n := Nat.mod_eq_of_lt hn

/-- The row blocks are the row tiles of the predictions. -/
theorem hrows (c : Dev nD) : ∀ n (hn : n < 64) (p : Fin 1024) (k : Fin 256),
    (blocks m c).rows n (ix2 p k)
      = m ((c : Thread nD τ).loc main_arg0) (ix2 (⟨1024 * (n / 8) + p.val, by omega⟩ : Fin 8192) k) := by
  intro n hn p k
  refine ((iblk0_apply m c (Acc.pt n) p k).trans (congrFun (V_arg0 m c) _)).trans ?_
  refine congrArg _ (congrArg (fun r => ix2 r k) (Fin.ext ?_))
  show 1024 * ((Acc.pt n).val / 8) + p.val = 1024 * (n / 8) + p.val
  rw [pt_val_of_lt n hn]

/-- The column blocks are the column tiles of the predictions. -/
theorem hcols (c : Dev nD) : ∀ n (hn : n < 64) (q : Fin 1024) (k : Fin 256),
    (blocks m c).cols n (ix2 q k)
      = m ((c : Thread nD τ).loc main_arg0) (ix2 (⟨1024 * (n % 8) + q.val, by omega⟩ : Fin 8192) k) := by
  intro n hn q k
  refine ((iblk1_apply m c (Acc.pt n) q k).trans (congrFun (V_arg0 m c) _)).trans ?_
  refine congrArg _ (congrArg (fun r => ix2 r k) (Fin.ext ?_))
  show 1024 * ((Acc.pt n).val % 8) + q.val = 1024 * (n % 8) + q.val
  rw [pt_val_of_lt n hn]

/-- The row tiles' labels. -/
theorem hrl (c : Dev nD) : ∀ n (hn : n < 64) (p : Fin 1024),
    (blocks m c).rowLab n (ix2 p (0 : Fin 1))
      = m ((c : Thread nD τ).loc main_arg1) (ix1 (⟨1024 * (n / 8) + p.val, by omega⟩ : Fin 8192)) := by
  intro n hn p
  refine ((iblk2_apply m c (Acc.pt n) p 0).trans (V_v0_apply m c _ 0)).trans ?_
  refine congrArg _ (congrArg (fun r => ix1 r) (Fin.ext ?_))
  show 1024 * ((Acc.pt n).val / 8) + p.val = 1024 * (n / 8) + p.val
  rw [pt_val_of_lt n hn]

/-- The column tiles' labels. -/
theorem hcl (c : Dev nD) : ∀ n (hn : n < 64) (q : Fin 1024),
    (blocks m c).colLab n (ix2 (0 : Fin 1) q)
      = m ((c : Thread nD τ).loc main_arg1) (ix1 (⟨1024 * (n % 8) + q.val, by omega⟩ : Fin 8192)) := by
  intro n hn q
  refine ((iblk3_apply m c (Acc.pt n) 0 q).trans (V_v1_apply m c 0 _)).trans ?_
  refine congrArg _ (congrArg (fun r => ix1 r) (Fin.ext ?_))
  show 1024 * ((Acc.pt n).val % 8) + q.val = 1024 * (n % 8) + q.val
  rw [pt_val_of_lt n hn]

end Cert.PairLoss.Blk

end
-- ==== Proof.BlkFinal.lean ====
/-
  The arrays after the last grid point.

  The four input windows are never written back, so their arrays end as the region found them. Each of the two output
  windows has one block, the whole 1 × 1 array, and writes it back at the last point only; what it writes there is
  the running sum after all 64 points. A 1 × 1 array has one index, so the array after the run, read anywhere, is
  that block read at its one element.
-/
import proofs.«128166_j24773371363367_1_alg».proof.Proof.DataIdeal
import Idealize.ShloMosaic.Lib.Pipeline.Value

noncomputable section

namespace Cert.PairLoss.Blk

open Cert.KernelIdeal Cert.KernelIdeal.Gen Cert.KernelIdeal.Frm
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A 1 × 1 array has one index. -/
instance subsingleton_1x1 : Subsingleton S1x1.Idx := ⟨fun a b => funext fun d => Fin.ext (by
  match d with
  | ⟨0, _⟩ =>
    have ha : (a 0).val < 1 := (a 0).isLt
    have hb : (b 0).val < 1 := (b 0).isLt
    show (a 0).val = (b 0).val
    omega
  | ⟨1, _⟩ =>
    have ha : (a 1).val < 1 := (a 1).isLt
    have hb : (b 1).val < 1 := (b 1).isLt
    show (a 1).val = (b 1).val
    omega)⟩

/-- The grid has a last point. -/
theorem exists_last : ∃ t : Fin cfg0.N, t.val % 64 = 63 :=
  ⟨⟨63, by rw [show cfg0.N = 64 from N_0]; decide⟩, rfl⟩

/-- A point whose number is 63 modulo 64 is the 64th. -/
theorem succ_of_last (t : Fin cfg0.N) (h : t.val % 64 = 63) : t.val + 1 = 64 := by
  have := lt_of_lt_of_eq t.isLt (show cfg0.N = 64 from N_0)
  omega

/-! ## The inputs -/

theorem final0 (c : Dev nD) : (dats m 0 c).arrAt 0 cfg0.N = V m c main_arg0 :=
  ((dats m 0 c).arrAt_in 0 rfl _).trans (A_eq m c 0)
theorem final1 (c : Dev nD) : (dats m 0 c).arrAt 1 cfg0.N = V m c main_arg0 :=
  ((dats m 0 c).arrAt_in 1 rfl _).trans (A_eq m c 1)
theorem final2 (c : Dev nD) : (dats m 0 c).arrAt 2 cfg0.N = V m c main_v0 :=
  ((dats m 0 c).arrAt_in 2 rfl _).trans (A_eq m c 2)
theorem final3 (c : Dev nD) : (dats m 0 c).arrAt 3 cfg0.N = V m c main_v1 :=
  ((dats m 0 c).arrAt_in 3 rfl _).trans (A_eq m c 3)

/-! ## The distance sum -/

/-- What a flushing point writes back to the distance sum's array is the sum after all 64 points. -/
theorem flushed4_eq (c : Dev nD) (t : Fin cfg0.N) (hf : (cfg0.win 4).flush t = true) :
    (dats m 0 c).flushed 4 t = ((cfg0.win 4).blk t).view.read (Elt F) (Acc.sumAfter (blocks m c) 64) := by
  have ht := succ_of_last t ((flush0_4 t).1 hf)
  show (cfg0.win 4).cut (grid0.coords t) ((dats m 0 c).after 4 t) = _
  rw [after4, ht]
  funext j
  exact congrArg (Acc.sumAfter (blocks m c) 64) (Subsingleton.elim _ _)

/-- The distance sum's array after the run. -/
theorem final4 (c : Dev nD) :
    ((dats m 0 c).arrAt 4 cfg0.N : S1x1.Idx → Elt F .f32) = Acc.sumAfter (blocks m c) 64 := by
  obtain ⟨t, ht⟩ := exists_last
  have hf : (cfg0.win 4).flush t = true := (flush0_4 t).2 ht
  have h := (dats m 0 c).read_blk_arrAt 4 (Acc.sumAfter (blocks m c) 64) (fun t hf => flushed4_eq m c t hf) t hf
  funext i
  have hi : (dats m 0 c).arrAt 4 cfg0.N (((cfg0.win 4).blk t).view.emb i)
      = Acc.sumAfter (blocks m c) 64 (((cfg0.win 4).blk t).view.emb i) := congrFun h i
  exact (congrArg ((dats m 0 c).arrAt 4 cfg0.N) (Subsingleton.elim (α := S1x1.Idx) _ _)).trans
    (hi.trans (congrArg (Acc.sumAfter (blocks m c) 64) (Subsingleton.elim (α := S1x1.Idx) _ _)))

/-! ## The pair count -/

/-- What a flushing point writes back to the pair count's array is the count after all 64 points. -/
theorem flushed5_eq (c : Dev nD) (t : Fin cfg0.N) (hf : (cfg0.win 5).flush t = true) :
    (dats m 0 c).flushed 5 t = ((cfg0.win 5).blk t).view.read (Elt F) (Acc.cntAfter (blocks m c) 64) := by
  have ht := succ_of_last t ((flush0_5 t).1 hf)
  show (cfg0.win 5).cut (grid0.coords t) ((dats m 0 c).after 5 t) = _
  rw [after5, ht]
  funext j
  exact congrArg (Acc.cntAfter (blocks m c) 64) (Subsingleton.elim _ _)

/-- The pair count's array after the run. -/
theorem final5 (c : Dev nD) :
    ((dats m 0 c).arrAt 5 cfg0.N : S1x1.Idx → Elt F .f32) = Acc.cntAfter (blocks m c) 64 := by
  obtain ⟨t, ht⟩ := exists_last
  have hf : (cfg0.win 5).flush t = true := (flush0_5 t).2 ht
  have h := (dats m 0 c).read_blk_arrAt 5 (Acc.cntAfter (blocks m c) 64) (fun t hf => flushed5_eq m c t hf) t hf
  funext i
  have hi : (dats m 0 c).arrAt 5 cfg0.N (((cfg0.win 5).blk t).view.emb i)
      = Acc.cntAfter (blocks m c) 64 (((cfg0.win 5).blk t).view.emb i) := congrFun h i
  exact (congrArg ((dats m 0 c).arrAt 5 cfg0.N) (Subsingleton.elim (α := S1x1.Idx) _ _)).trans
    (hi.trans (congrArg (Acc.cntAfter (blocks m c) 64) (Subsingleton.elim (α := S1x1.Idx) _ _)))

end Cert.PairLoss.Blk

end
-- ==== Proof.BlkTail.lean ====
/-
  The five host lines after the kernel region.

  They reshape the two 1 × 1 results to scalars, divide the first by the second, and multiply by the word of the
  weight; they write four scalars and nothing else, so every other array, the two arguments among them, is left as
  it was. A reshape of a constant array is the same constant, so when the region leaves the total of the counted
  distances and the number of counted pairs, the last line writes the specification's `loss`.
-/
import proofs.«128166_j24773371363367_1_alg».proof.Proof.Gen.KernelIdeal.Launch
import proofs.«128166_j24773371363367_1_alg».proof.Proof.Spec
import Idealize.ShloMosaic.Lib.StableHlo.Run

noncomputable section

namespace Cert.PairLoss.Blk

open Cert.KernelIdeal Cert.KernelIdeal.Gen
open Idealize.ShloMosaic Idealize.ShloMosaic.TcCoe Idealize.SL.Sem

variable {F : FTy → Type} [FloatOps F]

/-- The host lines after the region write only their own four scalars. -/
theorem not_written1 (b : Ref sig .tc) (hb : b ≠ main_v3 ∧ b ≠ main_v4 ∧ b ≠ main_v5 ∧ b ≠ main_cst ∧ b ≠ main_v6) :
    ∀ op ∈ (hostOps1 (F := F)), Proc.devRef .tc b ∉ op.writes := by
  obtain ⟨h0, h1, h2, h3, h4⟩ := hb
  intro op hop
  simp only [hostOps1, List.mem_cons, List.mem_nil_iff, or_false] at hop
  rcases hop with rfl | rfl | rfl | rfl | rfl <;>
    simp only [StableHlo.reshape_writes, StableHlo.binary_writes, StableHlo.nullary_writes, Finset.mem_singleton] <;>
    exact StableHlo.devRef_ne_of_ne ‹_›

/-- The predictions are left as they were. -/
theorem tail_arg0 (W : Valuation τ sig (Elt F)) :
    StableHlo.after hostOps1 W (Proc.devRef .tc main_arg0) = W (Proc.devRef .tc main_arg0) :=
  StableHlo.after_of_forall_not_mem (b := Proc.devRef .tc main_arg0) hostOps1 W (not_written1 main_arg0 (by decide))

/-- The labels are left as they were. -/
theorem tail_arg1 (W : Valuation τ sig (Elt F)) :
    StableHlo.after hostOps1 W (Proc.devRef .tc main_arg1) = W (Proc.devRef .tc main_arg1) :=
  StableHlo.after_of_forall_not_mem (b := Proc.devRef .tc main_arg1) hostOps1 W (not_written1 main_arg1 (by decide))

/-- The result: the quotient of the two reshaped sums times the word of the weight. -/
theorem tail_v6 (W : Valuation τ sig (Elt F)) :
    (StableHlo.after hostOps1 W (Proc.devRef .tc main_v6) : S_.Idx → Elt F .f32)
      = mulf (Host.divf (shapeCast S_ (W (Proc.devRef .tc main_v2_0) : S1x1.Idx → Elt F .f32) shapeCasts_S1x1_S_)
            (shapeCast S_ (W (Proc.devRef .tc main_v2_1) : S1x1.Idx → Elt F .f32) shapeCasts_S1x1_S_))
          (constant (F := F) S_ .f32 0x3F800000#32) := by
  simp only [hostOps1]
  after_results
  rfl

/-- At the extended reals, from the total and the count, the result is the specification's `loss`. -/
theorem tail_loss (W : Valuation τ sig (Elt Ideal)) (P : Mat) (g : Lab)
    (h0 : (W (Proc.devRef .tc main_v2_0) : S1x1.Idx → EReal) = fun _ => total P g)
    (h1 : (W (Proc.devRef .tc main_v2_1) : S1x1.Idx → EReal) = fun _ => count g) :
    (StableHlo.after hostOps1 W (Proc.devRef .tc main_v6) : S_.Idx → EReal) = fun _ => loss P g := by
  rw [tail_v6, h0, h1]
  rfl

end Cert.PairLoss.Blk

end
-- ==== Proof.ValueIdeal.lean ====
/-
  The idealized kernel's result is the mean distance of the counted pairs.

  After the 64 grid points the two results hold the running sums over all 64 tiles, which together are every pair of
  rows: the total distance of the counted pairs and their number. The five host lines after the region divide the one
  by the other and scale by one: the specification's value.
-/
import proofs.«128166_j24773371363367_1_alg».proof.Proof.LaunchIdeal
import proofs.«128166_j24773371363367_1_alg».proof.Proof.TileAll
import proofs.«128166_j24773371363367_1_alg».proof.Proof.BlkHyps
import proofs.«128166_j24773371363367_1_alg».proof.Proof.BlkFinal
import proofs.«128166_j24773371363367_1_alg».proof.Proof.BlkTail

noncomputable section

namespace Cert.PairLoss.Kernel

open Cert.KernelIdeal Cert.KernelIdeal.Gen Cert.KernelIdeal.Frm
open Idealize.ShloMosaic Idealize.ShloMosaic.TcCoe Idealize.SL.Sem

variable (m : (ℓ : Loc nD τ sig) → Buf (Elt Ideal) ℓ)

/-- The first result after the region: the total distance of the counted pairs. -/
theorem exit_sum (c : Dev nD) : (Wexit m c (Proc.devRef .tc main_v2_0) : S1x1.Idx → EReal)
    = fun _ => total (m ((c : Thread nD τ).loc main_arg0)) (m ((c : Thread nD τ).loc main_arg1)) := by
  rw [Wexit_sum]
  exact (Blk.final4 m c).trans (Tile.sumAfter_all _ _ _ (Blk.hrows m c) (Blk.hcols m c) (Blk.hrl m c) (Blk.hcl m c))

/-- The second result after the region: the number of counted pairs. -/
theorem exit_cnt (c : Dev nD) : (Wexit m c (Proc.devRef .tc main_v2_1) : S1x1.Idx → EReal)
    = fun _ => count (m ((c : Thread nD τ).loc main_arg1)) := by
  rw [Wexit_cnt]
  exact (Blk.final5 m c).trans (Tile.cntAfter_all _ _ (Blk.hrl m c) (Blk.hcl m c))

/-- The program's result. -/
theorem value (c : Dev nD) : (Wend m c (Proc.devRef .tc main_v6) : S_.Idx → EReal)
    = fun _ => loss (m ((c : Thread nD τ).loc main_arg0)) (m ((c : Thread nD τ).loc main_arg1)) :=
  Blk.tail_loss (Wexit m c) _ _ (exit_sum m c) (exit_cnt m c)

/-- Every weakly fair execution of the idealized kernel ends with the result at the specification's value and both
    arguments as launched. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value m c), (h c).2⟩) (run_main m ρ)

end Cert.PairLoss.Kernel

end
-- ==== Proof.RefIdx.lean ====
/-
  The reference program's float stages read at explicit coordinates.

  For the matrix of predictions `P` (8192 rows of 256 extended reals): the row sums of squares are `sqn P r`
  (the sum starts from the zero word, and zero plus a sum is the sum); the product of `P` with its transpose at
  `(r, c)` is `gram P r c` (the transposed operand at `(k, c)` is `P` at `(c, k)`); and the stage after the
  square root, at `(r, c)`, is `dist P r c`: both squared norms are broadcast along the other axis, twice the
  product is subtracted, the difference is clamped at the zero word and the root taken, literal by literal as the
  specification spells them.
-/
import proofs.«128166_j24773371363367_1_alg».proof.Proof.Gen.ReferenceIdeal.Read
import proofs.«128166_j24773371363367_1_alg».proof.Proof.Spec

noncomputable section

open scoped BigOperators

namespace Cert.PairLoss.Ref

open Idealize.ShloMosaic Idealize.ShloMosaic.ValueIdx Cert.ReferenceIdeal Cert.ReferenceIdeal.Read

/-- The row sums of squares at row `r`. -/
theorem sq_apply (a0 : FVec Ideal S8192x256 .f32) (r : Fin 8192) :
    val_main_v1 (F := Ideal) a0 (ix1 r) = sqn a0 r := by
  rw [val_main_v1_apply]
  have e : ∀ k : Fin 256, idx_main_v1 (ix1 r) k = ix2 r k := fun k =>
    funext fun a => Fin.ext (by match a with | ⟨0, _⟩ => rfl | ⟨1, _⟩ => rfl)
  simp only [val_main_cst_apply, val_main_v0_apply, e, Ideal.ofBits_def, Ideal.mulf_def, Ideal.ofBits_zero_f32,
    zero_add]
  rfl

/-- The product with the transpose at `(r, c)`. -/
theorem gram_apply (a0 : FVec Ideal S8192x256 .f32) (r c : Fin 8192) :
    val_main_v8 (F := Ideal) a0 (ix2 r c) = gram a0 r c := by
  rw [val_main_v8_apply]
  have el : ∀ k : Fin 256, lidx_main_v8 (ix2 r c) k = ix2 r k := fun k =>
    funext fun a => Fin.ext (by match a with | ⟨0, _⟩ => rfl | ⟨1, _⟩ => rfl)
  have er : ∀ k : Fin 256, idx_main_v7 (ridx_main_v8 (ix2 r c) k) = ix2 c k := fun k =>
    funext fun a => Fin.ext (by match a with | ⟨0, _⟩ => rfl | ⟨1, _⟩ => rfl)
  simp only [val_main_v7_apply, el, er]
  rfl

/-- The stage after the square root at `(r, c)`. -/
theorem dist_apply (a0 : FVec Ideal S8192x256 .f32) (r c : Fin 8192) :
    val_main_v14 (F := Ideal) a0 (ix2 r c) = dist a0 r c := by
  have e4 : idx_main_v2 (idx_main_v4 (ix2 r c)) = ix1 r :=
    funext fun a => Fin.ext (by match a with | ⟨0, _⟩ => rfl)
  have e5 : idx_main_v3 (idx_main_v5 (ix2 r c)) = ix1 c :=
    funext fun a => Fin.ext (by match a with | ⟨0, _⟩ => rfl)
  rw [val_main_v14_apply, val_main_v13_apply, val_main_v11_apply, val_main_v6_apply, val_main_v10_apply,
    val_main_v4_apply, val_main_v2_apply, val_main_v5_apply, val_main_v3_apply, val_main_v9_apply,
    val_main_cst_0_apply, val_main_v12_apply, val_main_cst_1_apply, e4, e5, sq_apply, sq_apply, gram_apply]
  rfl

end Cert.PairLoss.Ref

end
-- ==== Proof.RefMask.lean ====
/-
  The reference program's mask read at explicit coordinates.

  The strict upper triangle is computed from the two coordinate arrays as 32-bit words: "row plus zero, signed,
  is at least column" selects the bit 0, otherwise the bit 1. Coordinates are below 8192, far below 2^31, so the
  words read signed are the coordinates themselves and the bit at `(r, c)` is 1 exactly when `r < c`.
  The labels are broadcast along rows and along columns and compared for equality, so that bit at `(r, c)` is 1
  exactly when the labels of `r` and `c` agree. The mask is the "and" of the two bits: 1 exactly on the counted
  pairs of the specification.
-/
import proofs.«128166_j24773371363367_1_alg».proof.Proof.Gen.ReferenceIdeal.Read
import proofs.«128166_j24773371363367_1_alg».proof.Proof.Spec

noncomputable section

namespace Cert.PairLoss.Ref

open Idealize.ShloMosaic Idealize.ShloMosaic.ValueIdx Cert.ReferenceIdeal Cert.ReferenceIdeal.Read

/-- A number below 8192, as a 32-bit word read signed, is itself. -/
theorem toInt_ofNat_small (n : Nat) (h : n < 8192) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- An equality test of words, as a bit. -/
theorem cmpi_eq_ite {w : Nat} (x y : BitVec w) : IntOp.cmpi .eq x y = if x = y then 1#1 else 0#1 := by
  by_cases h : x = y
  · rw [if_pos h]; exact IntOp.cmpi_eq.2 h
  · rw [if_neg h]; exact eq_zero_of_ne_one (fun e => h (IntOp.cmpi_eq.1 e))

/-- The strict upper triangle at `(r, c)`: the bit of `r < c`. -/
theorem upper_apply (r c : Fin 8192) :
    val_main_v16 (F := Ideal) (ix2 r c) = if r.val < c.val then 1#1 else 0#1 := by
  rw [val_main_v16_apply, val_main_call0_v4_apply, val_main_call0_v2_apply, val_main_call0_v0_apply,
    val_main_call0_v1_apply, val_main_call0_c_apply, val_main_call0_v3_apply, val_main_call0_v5_apply,
    val_main_call0_c_0_apply, val_main_v15_apply, val_main_c_apply]
  show Scalar.select (IntOp.cmpi .sge (IntOp.addi (BitVec.ofNat 32 r.val) 0#32) (BitVec.ofNat 32 c.val)) 0#1 1#1 = _
  have hadd : IntOp.addi (BitVec.ofNat 32 r.val) 0#32 = BitVec.ofNat 32 r.val := BitVec.add_zero _
  rw [hadd]
  have hr := toInt_ofNat_small r.val r.isLt
  have hc := toInt_ofNat_small c.val c.isLt
  by_cases h : r.val < c.val
  · rw [if_pos h]
    have hz : IntOp.cmpi .sge (BitVec.ofNat 32 r.val) (BitVec.ofNat 32 c.val) = 0#1 :=
      eq_zero_of_ne_one (fun e => by
        have := IntOp.cmpi_sge.1 e
        rw [hr, hc] at this
        omega)
    rw [hz]; exact select_zero _ _
  · rw [if_neg h]
    have ho : IntOp.cmpi .sge (BitVec.ofNat 32 r.val) (BitVec.ofNat 32 c.val) = 1#1 :=
      IntOp.cmpi_sge.2 (by rw [hr, hc]; omega)
    rw [ho]; exact select_one _ _

/-- The label comparison at `(r, c)`: the bit of "the labels of `r` and `c` agree". -/
theorem same_apply (a1 : IVec S8192 32) (r c : Fin 8192) :
    val_main_v21 (F := Ideal) a1 (ix2 r c) = if a1 (ix1 r) = a1 (ix1 c) then 1#1 else 0#1 := by
  have e19 : idx_main_v17 (idx_main_v19 (ix2 r c)) = ix1 r :=
    funext fun a => Fin.ext (by match a with | ⟨0, _⟩ => rfl)
  have e20 : idx_main_v18 (idx_main_v20 (ix2 r c)) = ix1 c :=
    funext fun a => Fin.ext (by match a with | ⟨0, _⟩ => rfl)
  rw [val_main_v21_apply, val_main_v19_apply, val_main_v17_apply, val_main_v20_apply, val_main_v18_apply, e19, e20]
  exact cmpi_eq_ite _ _

/-- The mask at `(r, c)`: the bit of "the pair counts". -/
theorem mask_apply (a1 : IVec S8192 32) (r c : Fin 8192) :
    val_main_v22 (F := Ideal) a1 (ix2 r c) = if counts a1 r c then 1#1 else 0#1 := by
  rw [val_main_v22_apply, upper_apply, same_apply]
  by_cases h1 : r.val < c.val
  · by_cases h2 : a1 (ix1 r) = a1 (ix1 c)
    · rw [if_pos h1, if_pos h2, if_pos (show counts a1 r c from ⟨h1, h2⟩)]; rfl
    · rw [if_pos h1, if_neg h2, if_neg (show ¬ counts a1 r c from fun h => h2 h.2)]; rfl
  · by_cases h2 : a1 (ix1 r) = a1 (ix1 c)
    · rw [if_neg h1, if_pos h2, if_neg (show ¬ counts a1 r c from fun h => h1 h.1)]; rfl
    · rw [if_neg h1, if_neg h2, if_neg (show ¬ counts a1 r c from fun h => h1 h.1)]; rfl

end Cert.PairLoss.Ref

end
-- ==== Proof.LibCount.lean ====
/-
  Counting the ones of an array of bits, and asking whether there is any.

  An array of one-bit words is reduced two ways into a result with a single index.

  * By "or", from the initial value 0. A left fold by "or" over one-bit words that comes out 1 either started at 1 or
    met a 1 (by induction on the list: "c or d" is 1 only if c or d is). Started at 0, a result of 1 therefore
    exhibits an index whose bit is 1.

  * By 32-bit addition of the zero-extended bits, from the initial value 0. Over any finite set S of indices the fold
    has, as an unsigned number, the value (∑ i ∈ S, bᵢ) mod 2^32 (by induction on S: addition of 32-bit words is
    addition mod 2^32, and zero-extension keeps the value). Each bit is at most 1, so the sum over all indices is at
    most their number; while that is below 2^31 there is no wrap-around and the sign bit is clear, so the signed
    reading of the word is the number of ones.

  Read as extended reals, the count is the finite sum of the bits. That sum is at least 1 as soon as one bit is 1,
  every term being non-negative. The shape 2048 × 16 has 32768 < 2^31 indices.
-/
import Idealize.ShloMosaic.PureOps.Reduce
import Idealize.ShloMosaic.PureOps.Ideal

namespace Cert.LibCount

open Idealize.ShloMosaic

/-- The embedding of the reals into the extended reals commutes with finite sums. -/
private theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- On one-bit words "c or d" is 1 exactly when c is 1 or d is 1. -/
theorem ori_eq_one {c d : BitVec 1} : IntOp.ori c d = 1#1 ↔ c = 1#1 ∨ d = 1#1 := by revert c d; decide

/-- A left fold by "or" over one-bit words that came out 1 started at 1 or met a 1. -/
theorem foldl_ori_eq_one {ι : Type} (f : ι → BitVec 1) :
    ∀ (l : List ι) (init : BitVec 1),
      l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

variable {s t u : Shape} {axes : List (Fin s.rank)}

/-- A reduce by "or" from 0 into a result of one index that is 1 had a 1 at some operand index. -/
theorem reduce_ori_any [Subsingleton t.Idx] (x : s.Idx → BitVec 1) (init : u.Idx → BitVec 1) (h : s.ReducesTo axes t)
    (hu : 0 < u.numel) (hinit : init (Shape.Idx.first hu) = 0#1) (j : t.Idx)
    (e : Host.reduce IntOp.ori x init h hu j = 1#1) : ∃ i, x i = 1#1 := by
  rw [Host.reduce_eq_foldl] at e
  rcases foldl_ori_eq_one x _ _ e with h1 | ⟨n, _, hn⟩
  · rw [hinit] at h1; exact absurd h1 (by decide)
  · exact ⟨n, hn⟩

/-- The fold by 32-bit addition, from 0, of the zero-extended bits over a finite set has, as an unsigned number, the
    value of the sum of the bits mod 2^32. -/
theorem fold_addi_toNat {ι : Type} (x : ι → BitVec 1) (S : Finset ι) :
    (S.fold IntOp.addi 0#32 (fun i => (x i).setWidth 32)).toNat = (∑ i ∈ S, (x i).toNat) % 2 ^ 32 := by
  classical
  induction S using Finset.induction_on with
  | empty => simp
  | insert a S ha ih =>
    rw [Finset.fold_insert ha, Finset.sum_insert ha]
    show ((x a).setWidth 32 + _).toNat = _
    rw [BitVec.toNat_add, ih, BitVec.toNat_setWidth]
    have hlt : (x a).toNat < 2 := (x a).isLt
    generalize (∑ i ∈ S, (x i).toNat) = N
    omega

/-- The sum of the bits is at most the number of indices. -/
theorem sum_toNat_le_card {ι : Type} [Fintype ι] (x : ι → BitVec 1) : ∑ i : ι, (x i).toNat ≤ Fintype.card ι := by
  calc ∑ i : ι, (x i).toNat ≤ ∑ _i : ι, 1 :=
        Finset.sum_le_sum fun i _ => by have hlt : (x i).toNat < 2 := (x i).isLt; omega
    _ = Fintype.card ι := by simp

/-- The 32-bit sum of the zero-extended bits, from 0, into a result of one index, read as a signed integer, is the
    number of ones, while there are fewer than 2^31 indices. -/
theorem reduce_addi_toInt [Subsingleton t.Idx] (x : s.Idx → BitVec 1) (init : u.Idx → BitVec 32)
    (h : s.ReducesTo axes t) (hu : 0 < u.numel) (hinit : init (Shape.Idx.first hu) = 0#32) (j : t.Idx)
    (hsmall : Fintype.card s.Idx < 2 ^ 31) :
    (Host.reduce IntOp.addi (fun i => (x i).setWidth 32) init h hu j).toInt = ((∑ i : s.Idx, (x i).toNat : ℕ) : ℤ) := by
  rw [Host.reduce_eq_fold, hinit]
  have hS : (Finset.univ.filter fun i => h.drop i = j) = Finset.univ :=
    Finset.filter_true_of_mem fun i _ => Subsingleton.elim _ _
  rw [hS]
  have hle := sum_toNat_le_card x
  have hN := fold_addi_toNat x Finset.univ
  have hmod : (∑ i : s.Idx, (x i).toNat) % 2 ^ 32 = ∑ i : s.Idx, (x i).toNat := Nat.mod_eq_of_lt (by omega)
  rw [hmod] at hN
  rw [BitVec.toInt_eq_toNat_of_lt (by rw [hN]; omega), hN]

/-- The same as extended reals: the count is the sum of the bits. -/
theorem count_eq_sum [Subsingleton t.Idx] (x : s.Idx → BitVec 1) (init : u.Idx → BitVec 32) (h : s.ReducesTo axes t)
    (hu : 0 < u.numel) (hinit : init (Shape.Idx.first hu) = 0#32) (j : t.Idx) (hsmall : Fintype.card s.Idx < 2 ^ 31) :
    ((((Host.reduce IntOp.addi (fun i => (x i).setWidth 32) init h hu j).toInt : ℤ) : ℝ) : EReal)
      = ∑ i : s.Idx, (((x i).toNat : ℝ) : EReal) := by
  rw [reduce_addi_toInt x init h hu hinit j hsmall, Int.cast_natCast, Nat.cast_sum, coe_sum]

/-- The shape 2048 × 16 has fewer than 2^31 indices. -/
theorem card_2048x16 : Fintype.card (⟨2, ![2048, 16]⟩ : Shape).Idx < 2 ^ 31 := by
  rw [Shape.card_idx, Shape.numel, Fin.prod_univ_two]
  norm_num

/-- A sum of bits, as extended reals, is at least 1 as soon as one bit is 1. -/
theorem sum_pos_of_one (x : s.Idx → BitVec 1) (i₀ : s.Idx) (h : x i₀ = 1#1) :
    (1 : EReal) ≤ ∑ i : s.Idx, (((x i).toNat : ℝ) : EReal) := by
  rw [← coe_sum, ← EReal.coe_one, EReal.coe_le_coe_iff]
  calc (1 : ℝ) = ((x i₀).toNat : ℝ) := by rw [h]; simp
    _ ≤ ∑ i : s.Idx, ((x i).toNat : ℝ) :=
        Finset.single_le_sum (f := fun i => ((x i).toNat : ℝ)) (fun i _ => Nat.cast_nonneg _) (Finset.mem_univ i₀)

end Cert.LibCount
-- ==== Proof.RefValue.lean ====
/-
  The reference program computes the specification's `loss`.

  The selected distances: at `(r, c)` the select takes the distance where the mask bit is 1 and the zero word
  elsewhere, which is `term`. The float sum over both axes starts from the zero word, and a sum over the rank-2
  index set is the double sum over the coordinates: `total`. The integer sum adds the zero-extended mask bits as
  32-bit words from 0; there are 8192 · 8192 = 2^26 < 2^31 indices, so nothing wraps, the signed reading of the
  word is the number of ones, and as an extended real it is the double sum of `unit`: `count`. The result is the
  quotient of the two times the word of the weight.
-/
import proofs.«128166_j24773371363367_1_alg».proof.Proof.RefIdx
import proofs.«128166_j24773371363367_1_alg».proof.Proof.RefMask
import proofs.«128166_j24773371363367_1_alg».proof.Proof.LibCount

noncomputable section

open scoped BigOperators

namespace Cert.PairLoss.Ref

open Idealize.ShloMosaic Idealize.ShloMosaic.ValueIdx Cert.ReferenceIdeal Cert.ReferenceIdeal.Read

/-- The scalar shape has one index. -/
instance subsingleton_scalar : Subsingleton S_.Idx := ⟨fun _ _ => funext fun d => d.elim0⟩

/-- The square shape has 2^26 indices, fewer than 2^31. -/
theorem card_square : Fintype.card S8192x8192.Idx < 2 ^ 31 := by
  rw [Shape.card_idx, Shape.numel, Fin.prod_univ_two]
  norm_num

/-- The selected distance at `(r, c)`. -/
theorem term_apply (a0 : FVec Ideal S8192x256 .f32) (a1 : IVec S8192 32) (r c : Fin 8192) :
    val_main_v26 (F := Ideal) a0 a1 (ix2 r c) = term a0 a1 r c := by
  rw [val_main_v26_apply, mask_apply, dist_apply, val_main_call1_v1_apply, val_main_call1_v0_apply,
    val_main_cst_3_apply]
  unfold term
  by_cases h : counts a1 r c
  · rw [if_pos h, if_pos h]; exact select_one _ _
  · rw [if_neg h, if_neg h]; exact (select_zero _ _).trans Ideal.ofBits_zero_f32

/-- The float sum over both axes. -/
theorem total_apply (a0 : FVec Ideal S8192x256 .f32) (a1 : IVec S8192 32) (i : S_.Idx) :
    val_main_v27 (F := Ideal) a0 a1 i = total a0 a1 := by
  rw [val_main_v27_apply, val_main_cst_4_apply, sum_idx2]
  simp only [term_apply]
  exact (congrArg (· + _) Ideal.ofBits_zero_f32).trans (zero_add _)

/-- One mask bit, as an extended real. -/
theorem unit_apply (a1 : IVec S8192 32) (r c : Fin 8192) :
    ((((val_main_v22 (F := Ideal) a1 (ix2 r c)).toNat : ℝ)) : EReal) = unit a1 r c := by
  rw [mask_apply]
  unfold unit
  by_cases h : counts a1 r c
  · rw [if_pos h, if_pos h]; simp
  · rw [if_neg h, if_neg h]; simp

/-- The integer sum of the mask bits, read signed and converted. -/
theorem count_apply (a1 : IVec S8192 32) (i : S_.Idx) :
    val_main_v25 (F := Ideal) a1 i = count a1 := by
  rw [val_main_v25_apply]
  show ((((Host.reduce IntOp.addi (fun j => (val_main_v22 (F := Ideal) a1 j).setWidth 32)
      (val_main_c_2 (F := Ideal)) _ _ i).toInt : ℤ) : ℝ) : EReal) = _
  rw [Cert.LibCount.count_eq_sum _ _ _ _ rfl i card_square, sum_idx2]
  simp only [unit_apply]
  rfl

/-- The reference's result, as a function of the two argument arrays, is the specification's `loss`. -/
theorem value (a0 : FVec Ideal Cert.ReferenceIdeal.S8192x256 .f32) (a1 : IVec Cert.ReferenceIdeal.S8192 32) :
    val_main_v29 (F := Ideal) a0 a1 = fun _ => loss a0 a1 := by
  funext i
  rw [val_main_v29_apply, val_main_v28_apply, total_apply, count_apply, val_main_cst_5_apply]
  rfl

end Cert.PairLoss.Ref

end
-- ==== Proof.RefRun.lean ====
/-
  The reference program's run, with its result named by the specification.

  Every weakly fair execution of the reference terminates with the result array holding, at its one index, the
  specification's `loss` of the two argument arrays as the launch memory holds them, and with the argument arrays
  unchanged. Forgetting the result gives the frame statement.
-/
import proofs.«128166_j24773371363367_1_alg».proof.Proof.RefValue

noncomputable section

namespace Cert.PairLoss.Ref

open Idealize.ShloMosaic Idealize.ShloMosaic.TcCoe Idealize.SL.Sem Cert.ReferenceIdeal Cert.ReferenceIdeal.Gen

/-- The reference runs, ends with `loss` of its arguments in the result, and leaves the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((Cert.ReferenceIdeal.Read.val_main_v29_eq _ _).trans (value _ _)), (h c).2⟩)
    (Cert.ReferenceIdeal.Value.run (F := Ideal) m ρ)

/-- The reference runs and leaves its arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.PairLoss.Ref

end
-- ==== Proof.lean ====
/-
  The kernel computes, tile by tile over an 8 × 8 grid, the sum of the distances of the pairs of rows `r < c` with equal
  labels and the number of such pairs, and the host divides the one by the other; the reference computes the same two
  numbers over the whole 8192 × 8192 square at once. At the extended reals both are the specification's
  `loss` (Proof/Spec.lean): a sum over the square is the sum of its 64 tiles' sums, in whatever order.

  The kernel's frame — it runs to its end, faults nowhere, leaves its arguments as launched — is proved once for any
  float values from the body's run at a grid point (the running sums carried between points in two scratch cells,
  cleared at the first point) and used at the word level and at the extended reals; the predictions' array is read
  through two windows, each holding half of it. The idealization rewrote nothing, so its faithfulness is trivial.
-/
import proofs.«128166_j24773371363367_1_alg».proof.Defs
import proofs.«128166_j24773371363367_1_alg».proof.Proof.Gen.Kernel
import proofs.«128166_j24773371363367_1_alg».proof.Proof.Gen.KernelIdeal
import proofs.«128166_j24773371363367_1_alg».proof.Proof.Gen.ReferenceIdeal
import proofs.«128166_j24773371363367_1_alg».proof.Proof.Gen.Pre_finite_inputs
import proofs.«128166_j24773371363367_1_alg».proof.Proof.LaunchBits
import proofs.«128166_j24773371363367_1_alg».proof.Proof.ValueIdeal
import proofs.«128166_j24773371363367_1_alg».proof.Proof.RefRun

noncomputable section

namespace Cert.Proof

open Idealize.ShloMosaic Idealize.SL.Sem

theorem frame_kernel : Cert.frame_Kernel := fun m ρ _ => Cert.Kernel.Frm.frame m ρ

theorem frame_kernelIdeal : Cert.frame_KernelIdeal := fun m ρ _ => Cert.KernelIdeal.Frm.frame m ρ

theorem frame_referenceIdeal : Cert.frame_ReferenceIdeal := fun m ρ _ => Cert.PairLoss.Ref.frame m ρ

theorem preserves : Cert.preserves_Kernel_KernelIdeal := trivial

/-- Both idealized programs end at the specification's value of the arguments, which agree. -/
theorem algebraic : Cert.algebraic_KernelIdeal_ReferenceIdeal := by
  intro m ρ m' ρ' _ hagree
  refine ⟨_, Cert.PairLoss.Kernel.run m ρ, ?_⟩
  refine (θ_run Cert.ReferenceIdeal.defs _ _).mono (fun _ h c => ⟨(h c).1.trans ?_, (h c).2⟩) (Cert.PairLoss.Ref.run m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
